-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x1600000 32) (main_arg2 : IVec S2x1600000 32) (main_arg3 : FVec F S128x128 .f32) (main_arg4 : FVec F S128x128 .f32) (main_arg5 : FVec F S128x128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S384x128 : Shape := ⟨2, ![384, 128]⟩
abbrev S128x384 : Shape := ⟨2, ![128, 384]⟩
abbrev S50000x384 : Shape := ⟨2, ![50000, 384]⟩
abbrev S5000x128 : Shape := ⟨2, ![5000, 128]⟩
abbrev S5000x384 : Shape := ⟨2, ![5000, 384]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 70
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S2x1600000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S384x128, .f32⟩
  | .hbm, ⟨9, _⟩ => ⟨S128x384, .f32⟩
  | .hbm, ⟨10, _⟩ => ⟨S50000x384, .f32⟩
  | .hbm, ⟨11, _⟩ => ⟨S50000x128, .f32⟩
  | .hbm, ⟨12, _⟩ => ⟨S50000x128, .f32⟩
  | .hbm, ⟨13, _⟩ => ⟨S50000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S50000x128, .f32⟩
  | .hbm, ⟨33, _⟩ => ⟨S1600000x1, .i32⟩
  | .hbm, ⟨34, _⟩ => ⟨S50000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S50000x128, .f32⟩
  | .hbm, ⟨46, _⟩ => ⟨S1600000x1, .i32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S1x128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S5000x384, .f32⟩
  | .local _ .vmem, ⟨4, _⟩ => ⟨S5000x384, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S128x128_S128x128_S128x128_S384x128_d0 : Shape.Concatenates [S128x128, S128x128, S128x128] S384x128 0
  transposes_S384x128_S128x384_1_0 : S384x128.Transposes [1, 0] S128x384
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S5000x128 : S1x128.Broadcasts S5000x128
  dot_S5000x128_S128x384_S5000x384_1_0_0_1_n_n_wf : DotDims.WF S5000x128 S128x384 S5000x384 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S2x1600000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S50000x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S128x128, .f32⟩
  | .hbm, ⟨24, _⟩ => ⟨S1600000x128, .f32⟩
  | .hbm, ⟨25, _⟩ => ⟨S_, .f32⟩
  | .hbm, ⟨26, _⟩ => ⟨S50000x128, .f32⟩
  | .hbm, ⟨27, _⟩ => ⟨S1600000x1, .i32⟩
  | .hbm, ⟨28, _⟩ => ⟨S50000x128, .f32⟩
  | .hbm, ⟨29, _⟩ => ⟨S50000x128, .f32⟩
  | .hbm, ⟨30, _⟩ => ⟨S1x1600000, .i32⟩
  | .hbm, ⟨31, _⟩ => ⟨S1600000, .i32⟩
  | .hbm, ⟨32, _⟩ => ⟨S1x1600000, .i32⟩
  | .hbm, ⟨33, _⟩ => ⟨S1600000, .i32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S128x128, .f32⟩
  | .hbm, ⟨44, _⟩ => ⟨S1600000x128, .f32⟩
  | .hbm, ⟨45, _⟩ => ⟨S_, .f32⟩
  | .hbm, ⟨46, _⟩ => ⟨S50000x128, .f32⟩
  | .hbm, ⟨47, _⟩ => ⟨S1600000x1, .i32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_call0_cst : Ref sig .tc := ⟨.hbm, 80, rfl⟩
abbrev main_call0_v0 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  dot_S1600000x128_S128x128_S1600000x128_1_0_0_1_n_n_wf : DotDims.WF S1600000x128 S128x128 S1600000x128 [1] [0] [0] [1] [] []
  scatter_S50000x128_S1600000x1_S1600000x128_1_0_0_1_wf : ScatterDims.WF S50000x128 S1600000x1 S1600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.Kernel.Region0.lean ====
/- REGION 0 of @main, the pipeline of `cc0__linear_kernel`, at a parameter `V` (the TensorCore's buffer contents when the
   region is entered): each window's block at a point, what the body leaves in the output window's buffer as a function of
   the input blocks, the body's triple, the pipeline's proof data and its body obligation. The body belongs to the plainest
   class: every load and every store is of a whole staging buffer, one control case. -/
import proofs.«136928_j37177236914931_1_alg».proof.Proof.Gen.Kernel.Launch
import proofs.«136928_j37177236914931_1_alg».proof.Proof.Gen.Kernel.Skeleton
import proofs.«136928_j37177236914931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of full extents: the structural look recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! # REGION 0 of @main: `cc0__linear_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the buffer still holds this point's block. The window is uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the buffer still holds this point's block (the weights: one block, fetched at the first point only). The window is uncut
    and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

/-! ## What the body leaves in the output window's buffer -/

/-- Window 2's staging buffer after the body, from the input windows' blocks: its one store, of the product of the
    two loaded blocks, as a piece. -/
def out0_2 (x0 : Vec F S5000x128 .f32) (x1 : Vec F S128x384 .f32) : Vec F S5000x384 .f32 :=
  View.canon [⟨r0_2, k0_pay1 (View.ld x0 r0_0) (View.ld x1 r0_1)⟩]

/-- The one store is of the whole buffer, so it covers it. -/
theorem cover0_2 (p0 : Vec F S5000x384 .f32) (y : S5000x384.Idx) :
    ∃ pc ∈ ([⟨r0_2, p0⟩] : List (View.Piece (Elt F) S5000x384 .f32)), y ∈ pc.1.set :=
  View.cover_of_tiled [⟨r0_2, p0⟩] S5000x384.size (by rfl) y

/-- The accesses' offsets, all zero. -/
theorem zeros0 : (![0, 0] : Fin 2 → Nat) = fun _ => 0 := funext fun a => by fin_cases a <;> rfl

/-- The reduced value: the loads are of whole buffers and the one store is of the whole buffer, so the output's buffer
    ends at the payload of the two input blocks. -/
theorem out0_2_eq (x0 : Vec F S5000x128 .f32) (x1 : Vec F S128x384 .f32) : out0_2 x0 x1 = k0_pay1 x0 x1 := by
  unfold out0_2
  rw [View.canon_unit_zero zeros0]
  simp only [View.ld_unit_zero (S := S5000x128) zeros0, View.ld_unit_zero (S := S128x384) zeros0]

/-! ## The body's triple -/

set_option maxHeartbeats 1000000 in
/-- The kernel body on whole staging memrefs, the inputs' at read contents `x0`, `x1` and the output's at anything, runs
    to the continuation holding the inputs' as they were and the output's at `out0_2` of the inputs'. The body also loads
    the output's buffer before it stores into it; nothing reads that value. -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.Kernel.Region1Runs.lean ====
/- Region 1 (the statistics kernel), first half: the body's run on whole staging memrefs.

   The body has one conditional, on the grid coordinate. At the first point it stores zeros into the two
   accumulator windows (4 and 5); at every point it stores the sum of the three input blocks into window 3,
   and into each accumulator its current contents plus a column reduction of that sum (window 4) or of its
   square (window 5). Every load and store is of a whole staging buffer, so a store leaves exactly its payload
   and a load reads exactly the contents. Two triples follow: one for the first point, one for the others. -/
import proofs.«136928_j37177236914931_1_alg».proof.Proof.Gen.Kernel.Launch
import proofs.«136928_j37177236914931_1_alg».proof.Proof.Gen.Kernel.Skeleton
import proofs.«136928_j37177236914931_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one conditional, as a function of the grid coordinates. -/
abbrev cond1_0 (i : grid1.Coords) : Prop := (Scalar.cmpi .ne (Scalar.extui (Scalar.cmpi .eq (BitVec.ofNat 32 (i 0).val) 0#32)) 0#32) = 1#1
/-- It holds at the first point only: decided over the ten points of the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## Whole-buffer stores -/

/-- The zero offsets of the whole-buffer rectangle, however spelt. -/
theorem hz : (![0, 0] : Fin 2 → Nat) = fun _ => 0 := funext fun a => by fin_cases a <;> rfl

/-- A store through the whole-shape rectangle at zero offsets, made LAST, leaves its payload: what the buffer reads
    afterwards is that payload, whatever it held and whatever the earlier stores were. -/
theorem read_writes_cons_unit_zero {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-! ## The body's two triples -/

set_option maxHeartbeats 1000000 in
/-- AT THE FIRST POINT (the coordinate is 0: the conditional is taken). On whole staging memrefs, the inputs' at read
    contents `x0 x1 x2` and the outputs' at anything, the body runs to the continuation holding the inputs' as they were,
    window 3's at the sum of the three blocks, and each accumulator's at one step from the zeros the body has just stored
    there. -/
theorem sound_kernel1_first (c : Dev nD) (E : Set ℕ) (i : grid1.Coords) (hc : cond1_0 i) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 x2)
            ∗ owns (c : Thread nD τ) arg5 fullShare (k1_pay4 x0 x1 x2 (k1_pay1 (F := F)))
            ∗ owns (c : Thread nD τ) arg6 fullShare (k1_pay5 x0 x1 x2 (k1_pay2 (F := F)))) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_cons_unit_zero _ _ hz]
    simp only [View.readAt_eq_ld, View.ld_unit_zero (S := S5000x128) hz]
  isplitl [H4]
  · iexists _; isplitr
    swap; · iexact H4
    ipureintro
    rw [read_writes_cons_unit_zero _ _ hz]
    sl_unfold_run_names
    rw [View.readCov_unit_zero (S := S1x128) _ hz]
    simp only [View.readAt_eq_ld, View.ld_unit_zero (S := S5000x128) hz]
  iexists _; isplitr
  swap; · iexact H5
  ipureintro
  rw [read_writes_cons_unit_zero _ _ hz]
  sl_unfold_run_names
  rw [View.readCov_unit_zero (S := S1x128) _ hz]
  simp only [View.readAt_eq_ld, View.ld_unit_zero (S := S5000x128) hz]

set_option maxHeartbeats 1000000 in
/-- AT EVERY OTHER POINT (the conditional is not taken). As above, with the accumulators' memrefs at their current
    contents `a4 a5`: each is left one step further. -/
theorem sound_kernel1_next (c : Dev nD) (E : Set ℕ) (i : grid1.Coords) (hc : ¬cond1_0 i) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole)
    (x0 x1 x2 : Vec F S5000x128 .f32) (a4 a5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 x2)
            ∗ owns (c : Thread nD τ) arg5 fullShare (k1_pay4 x0 x1 x2 a4)
            ∗ owns (c : Thread nD τ) arg6 fullShare (k1_pay5 x0 x1 x2 a5)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_cons_unit_zero _ _ hz]
    simp only [View.readAt_eq_ld, View.ld_unit_zero (S := S5000x128) hz]
  isplitl [H4]
  · iexists _; isplitr
    swap; · iexact H4
    ipureintro
    rw [read_writes_cons_unit_zero _ _ hz]
    simp only [View.readAt_eq_ld, View.ld_unit_zero (S := S5000x128) hz, View.ld_unit_zero (S := S1x128) hz]
  iexists _; isplitr
  swap; · iexact H5
  ipureintro
  rw [read_writes_cons_unit_zero _ _ hz]
  simp only [View.readAt_eq_ld, View.ld_unit_zero (S := S5000x128) hz, View.ld_unit_zero (S := S1x128) hz]

end Cert.Kernel.Frm

end
-- ==== Proof.Kernel.Region1.lean ====
/- Region 1 (the statistics kernel), second half, at the contents `V` the region is entered with: each window's
   block at a point; what the body leaves in each output window — window 3 the sum of the three input blocks, windows
   4 and 5 a running accumulation ACROSS THE GRID, by recursion on the point —; the pipeline's proof data; what each
   staging buffer holds when the body starts; and the body obligation at every point, by cases on whether the point is
   the first. -/
import proofs.«136928_j37177236914931_1_alg».proof.Proof.Kernel.Region1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of the core's buffers when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output window's buffer -/

/-- Window 3's staging buffer after the body: the sum of the three input blocks. -/
def out1_3 (x0 x1 x2 : Vec F S5000x128 .f32) : Vec F S5000x128 .f32 := k1_pay3 x0 x1 x2

theorem out1_3_eq (x0 x1 x2 : Vec F S5000x128 .f32) : out1_3 x0 x1 x2 = k1_pay3 x0 x1 x2 := rfl

/-- THE ACCUMULATION in window 4: what its one staging buffer holds after the body at position `n`. At the first
    point, one step from the zeros the body stores there; at a later point, one step from what the point before left
    (the buffer is not written back in between). A step adds the column sums of the three blocks' sum. -/
def acc1_4 (c : Dev nD) : (n : ℕ) → n < cfg1.N → Vec F S1x128 .f32
  | 0, hn => k1_pay4 (iblk1 V c 0 ⟨0, hn⟩) (iblk1 V c 1 ⟨0, hn⟩) (iblk1 V c 2 ⟨0, hn⟩) (k1_pay1 (F := F))
  | n + 1, hn => k1_pay4 (iblk1 V c 0 ⟨n + 1, hn⟩) (iblk1 V c 1 ⟨n + 1, hn⟩) (iblk1 V c 2 ⟨n + 1, hn⟩) (acc1_4 c n (Nat.lt_of_succ_lt hn))

/-- Its two defining equations. -/
theorem acc1_4_zero (c : Dev nD) (hn : 0 < cfg1.N) :
    acc1_4 V c 0 hn = k1_pay4 (iblk1 V c 0 ⟨0, hn⟩) (iblk1 V c 1 ⟨0, hn⟩) (iblk1 V c 2 ⟨0, hn⟩) (k1_pay1 (F := F)) := rfl
theorem acc1_4_succ (c : Dev nD) (n : ℕ) (hn : n + 1 < cfg1.N) :
    acc1_4 V c (n + 1) hn = k1_pay4 (iblk1 V c 0 ⟨n + 1, hn⟩) (iblk1 V c 1 ⟨n + 1, hn⟩) (iblk1 V c 2 ⟨n + 1, hn⟩) (acc1_4 V c n (Nat.lt_of_succ_lt hn)) := rfl

/-- At the first point: one step from the zeros. -/
theorem acc1_4_first (c : Dev nD) (t : Fin cfg1.N) (h0 : t.val % 10 = 0) :
    acc1_4 V c t.val t.isLt = k1_pay4 (iblk1 V c 0 t) (iblk1 V c 1 t) (iblk1 V c 2 t) (k1_pay1 (F := F)) := by
  obtain ⟨n, hn⟩ := t
  cases n with
  | zero => exact rfl
  | succ n =>
    exfalso
    have hN : n + 1 < 10 := lt_of_lt_of_eq hn (show cfg1.N = 10 from N_1)
    dsimp only at h0
    omega

/-- At a later point: one step from what the point before left. -/
theorem acc1_4_next (c : Dev nD) (t : Fin cfg1.N) (h0 : ¬t.val % 10 = 0) :
    acc1_4 V c t.val t.isLt = k1_pay4 (iblk1 V c 0 t) (iblk1 V c 1 t) (iblk1 V c 2 t)
      (acc1_4 V c (t.val - 1) (Nat.lt_of_le_of_lt (Nat.sub_le _ _) t.isLt)) := by
  obtain ⟨n, hn⟩ := t
  cases n with
  | zero => exact absurd (Nat.zero_mod _) h0
  | succ n => exact rfl

/-- THE ACCUMULATION in window 5: what its one staging buffer holds after the body at position `n`. At the first
    point, one step from the zeros the body stores there; at a later point, one step from what the point before left
    (the buffer is not written back in between). A step adds the column sums of the square of the three blocks' sum. -/
def acc1_5 (c : Dev nD) : (n : ℕ) → n < cfg1.N → Vec F S1x128 .f32
  | 0, hn => k1_pay5 (iblk1 V c 0 ⟨0, hn⟩) (iblk1 V c 1 ⟨0, hn⟩) (iblk1 V c 2 ⟨0, hn⟩) (k1_pay2 (F := F))
  | n + 1, hn => k1_pay5 (iblk1 V c 0 ⟨n + 1, hn⟩) (iblk1 V c 1 ⟨n + 1, hn⟩) (iblk1 V c 2 ⟨n + 1, hn⟩) (acc1_5 c n (Nat.lt_of_succ_lt hn))

/-- Its two defining equations. -/
theorem acc1_5_zero (c : Dev nD) (hn : 0 < cfg1.N) :
    acc1_5 V c 0 hn = k1_pay5 (iblk1 V c 0 ⟨0, hn⟩) (iblk1 V c 1 ⟨0, hn⟩) (iblk1 V c 2 ⟨0, hn⟩) (k1_pay2 (F := F)) := rfl
theorem acc1_5_succ (c : Dev nD) (n : ℕ) (hn : n + 1 < cfg1.N) :
    acc1_5 V c (n + 1) hn = k1_pay5 (iblk1 V c 0 ⟨n + 1, hn⟩) (iblk1 V c 1 ⟨n + 1, hn⟩) (iblk1 V c 2 ⟨n + 1, hn⟩) (acc1_5 V c n (Nat.lt_of_succ_lt hn)) := rfl

/-- At the first point: one step from the zeros. -/
theorem acc1_5_first (c : Dev nD) (t : Fin cfg1.N) (h0 : t.val % 10 = 0) :
    acc1_5 V c t.val t.isLt = k1_pay5 (iblk1 V c 0 t) (iblk1 V c 1 t) (iblk1 V c 2 t) (k1_pay2 (F := F)) := by
  obtain ⟨n, hn⟩ := t
  cases n with
  | zero => exact rfl
  | succ n =>
    exfalso
    have hN : n + 1 < 10 := lt_of_lt_of_eq hn (show cfg1.N = 10 from N_1)
    dsimp only at h0
    omega

/-- At a later point: one step from what the point before left. -/
theorem acc1_5_next (c : Dev nD) (t : Fin cfg1.N) (h0 : ¬t.val % 10 = 0) :
    acc1_5 V c t.val t.isLt = k1_pay5 (iblk1 V c 0 t) (iblk1 V c 1 t) (iblk1 V c 2 t)
      (acc1_5 V c (t.val - 1) (Nat.lt_of_le_of_lt (Nat.sub_le _ _) t.isLt)) := by
  obtain ⟨n, hn⟩ := t
  cases n with
  | zero => exact absurd (Nat.zero_mod _) h0
  | succ n => exact rfl

/-! ## The pipeline's proof data -/

/-- The proof data of pipeline 1 on core `c`: the arrays as the region finds them (`V`); after the body at point `t`
    each input's buffer at its block, window 3's at the three blocks' sum, each accumulator's at its running value; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => acc1_4 V c t.val t.isLt
    | ⟨5, _⟩ => acc1_5 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = acc1_4 V c t.val t.isLt := by dsimp only [dat1]
theorem after1_5 (c : Dev nD) (t : Fin cfg1.N) : (dat1 V c).after 5 t = acc1_5 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point other than the first, accumulator window 4's staging buffer holds what the body left at the point
    before: the buffer is written back at the last point only, so not in between; the window is live and uncut. -/
theorem before1_4_next (c : Dev nD) (t : Fin cfg1.N) (h0 : ¬t.val % 10 = 0) (d) :
    (dat1 V c).before 4 t d = acc1_4 V c (t.val - 1) (Nat.lt_of_le_of_lt (Nat.sub_le _ _) t.isLt) := by
  have hN : t.val < 10 := lt_of_lt_of_eq t.isLt (show cfg1.N = 10 from N_1)
  rw [Dat.before_out_kept _ 4 rfl t (by omega) (Bool.eq_false_iff.mpr fun h => by have := (flush1_4 _).mp h; dsimp only at this; omega)
    (fun _ => rfl) (fun _ _ => rfl)]
  dsimp only [dat1]

/-- At a point other than the first, accumulator window 5's staging buffer holds what the body left at the point
    before: the buffer is written back at the last point only, so not in between; the window is live and uncut. -/
theorem before1_5_next (c : Dev nD) (t : Fin cfg1.N) (h0 : ¬t.val % 10 = 0) (d) :
    (dat1 V c).before 5 t d = acc1_5 V c (t.val - 1) (Nat.lt_of_le_of_lt (Nat.sub_le _ _) t.isLt) := by
  have hN : t.val < 10 := lt_of_lt_of_eq t.isLt (show cfg1.N = 10 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point. The inputs' memrefs hold their blocks; the closed form of the condition says whether the
    point is the first. At the first point the accumulators' buffers hold anything and the first triple applies; at any
    other they hold what the point before left, and the second applies. The invariant and the core's debt pass through
    unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5, out1_3_eq]
  by_cases h0 : t.val % 10 = 0
  · rw [acc1_4_first V c t h0, acc1_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1_first c Set.univ (grid1.coords t) ((hcond1_0 t).mpr h0) _ _ _ _ _ _ _ _ _ _ _ _
      (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_next V c t h0, acc1_5_next V c t h0]
    simp only [before1_4_next V c t h0, before1_5_next V c t h0]
    iintro ⟨HΦ, Ho, ⟨%d0, H0⟩, ⟨%d1, H1⟩, ⟨%d2, H2⟩, ⟨%d3, H3⟩, ⟨%d4, H4⟩, ⟨%d5, H5⟩⟩
    iapply (sound_kernel1_next c Set.univ (grid1.coords t) (fun h => h0 ((hcond1_0 t).mp h)) _ _ _ _ _ _ _ _ _ _ _ _
      (iblk1 V c 0 t) (iblk1 V c 1 t) (iblk1 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Frm

end
-- ==== Proof.Kernel.Region2.lean ====
/- REGION 2 of @main, the pipeline of `cc2__norm_kernel`, at a parameter `V` (the TensorCore's buffer contents when the
   region is entered): each window's block at a point, what the body leaves in the output window's buffer as a function of
   the input blocks, the body's triple, the pipeline's proof data and its body obligation. The body belongs to the plainest
   class: every load and every store is of a whole staging buffer, one control case. -/
import proofs.«136928_j37177236914931_1_alg».proof.Proof.Gen.Kernel.Launch
import proofs.«136928_j37177236914931_1_alg».proof.Proof.Gen.Kernel.Skeleton
import proofs.«136928_j37177236914931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of full extents: the structural look recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! # REGION 2 of @main: `cc2__norm_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the buffer still holds this point's block. The window is uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the buffer still holds this point's block (a single row: one block, fetched at the first point only). The window is uncut
    and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the buffer still holds this point's block (a single row: one block, fetched at the first point only). The window is uncut
    and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): where the window is not
    fetched its block index has not moved, so the buffer still holds this point's block (a single row: one block, fetched at the first point only). The window is uncut
    and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): where the window is not
    fetched its block index has not moved, so the buffer still holds this point's block (a single row: one block, fetched at the first point only). The window is uncut
    and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 5's staging buffer after the body, from the input windows' blocks: its one store, of the block shifted,
    scaled twice, shifted again by the four rows and clamped below at zero, as a piece. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_0, k2_pay1 (View.ld x0 r2_0) (View.ld x1 r2_1) (View.ld x2 r2_1) (View.ld x3 r2_1) (View.ld x4 r2_1)⟩]

/-- The one store is of the whole buffer, so it covers it. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-- The accesses' offsets, all zero. -/
theorem zeros2 : (![0, 0] : Fin 2 → Nat) = fun _ => 0 := funext fun a => by fin_cases a <;> rfl

/-- The reduced value: the loads are of whole buffers and the one store is of the whole buffer, so the output's buffer
    ends at the payload of the five input blocks. -/
theorem out2_5_eq (x0 : Vec F S5000x128 .f32) (x1 : Vec F S1x128 .f32) (x2 : Vec F S1x128 .f32) (x3 : Vec F S1x128 .f32) (x4 : Vec F S1x128 .f32) :
    out2_5 x0 x1 x2 x3 x4 = k2_pay1 x0 x1 x2 x3 x4 := by
  unfold out2_5
  rw [View.canon_unit_zero zeros2]
  simp only [View.ld_unit_zero (S := S5000x128) zeros2, View.ld_unit_zero (S := S1x128) zeros2]

/-! ## The body's triple -/

set_option maxHeartbeats 1000000 in
/-- The kernel body on whole staging memrefs, the inputs' at read contents `x0 … x4` and the output's at anything, runs
    to the continuation holding the inputs' as they were and the output's at `out2_5` of the inputs'. The body also loads
    the output's buffer before it stores into it; nothing reads that value. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__norm_kernel i arg1 harg1 arg2 harg2 arg3 harg3 arg4 harg4 arg5 harg5 arg6 harg6) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.Kernel.Run.lean ====
/-
  @main as a sequence of segments — a stretch of host operations, a kernel region, a stretch, a region, a stretch, a
  region — and what every buffer holds at each boundary between two of them: the launch contents, then the host
  operations' results folded in, then each region's arrays at what its write-backs leave. Each region is entered with
  every unscoped buffer held at the boundary's contents and gives them back at the next boundary's; chaining the six
  segments gives the run: every weakly fair execution terminates, nothing faults, and the final memory holds each
  buffer at the last boundary's contents — in particular the result array at what the last region's write-backs leave,
  and every argument array as launched (no host operation and no region writes one).
-/
import proofs.«136928_j37177236914931_1_alg».proof.Proof.Gen.Kernel.Launch
import proofs.«136928_j37177236914931_1_alg».proof.Proof.Gen.Kernel.Skeleton
import proofs.«136928_j37177236914931_1_alg».proof.Proof.Gen.Kernel.Points
import proofs.«136928_j37177236914931_1_alg».proof.Proof.Gen.Kernel.Regions
import proofs.«136928_j37177236914931_1_alg».proof.Proof.Kernel.Region0
import proofs.«136928_j37177236914931_1_alg».proof.Proof.Kernel.Region1
import proofs.«136928_j37177236914931_1_alg».proof.Proof.Kernel.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (an input array as entered, an output array with its
    write-backs folded in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (an input array as entered, an output array with its
    write-backs folded in), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch of host operations (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (an input array as entered, an output array with its
    write-backs folded in), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## A buffer nothing writes ends as launched -/

/-- A buffer that no host operation writes and that is no region's array holds its launch contents at the end. -/
theorem W6_untouched (c : Dev nD) (b : Ref sig .tc) (h0 : b ∉ hostOps0_W) (h1 : b ∉ hostOps1_W) (h2 : b ∉ hostOps2_W)
    (hw0 : ∀ w, Pipeline.arrRef spec0 w ≠ b) (hw1 : ∀ w, Pipeline.arrRef spec1 w ≠ b) (hw2 : ∀ w, Pipeline.arrRef spec2 w ≠ b) :
    W6 m c (Proc.devRef .tc b) = m ((c : Thread nD τ).loc b) :=
  calc W6 m c (Proc.devRef .tc b)
    _ = W5 m c (Proc.devRef .tc b) := W6_of_ne m c b hw2
    _ = W4 m c (Proc.devRef .tc b) := StableHlo.after_of_writes_sub hostOps2 _ hostOps2_writes h2
    _ = W3 m c (Proc.devRef .tc b) := W4_of_ne m c b hw1
    _ = W2 m c (Proc.devRef .tc b) := StableHlo.after_of_writes_sub hostOps1 _ hostOps1_writes h1
    _ = W1 m c (Proc.devRef .tc b) := W2_of_ne m c b hw0
    _ = W0 m c (Proc.devRef .tc b) := StableHlo.after_of_writes_sub hostOps0 _ hostOps0_writes h0
    _ = m ((c : Thread nD τ).loc b) := rfl

/-- The first argument is region 0's first window's array, an input: the region leaves it as entered. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  W6_untouched m c main_arg1 (by decide) (by decide) (by decide) (by decide) (by decide) (by decide)
theorem W6_main_arg2 (c : Dev nD) : W6 m c (Proc.devRef .tc main_arg2) = m ((c : Thread nD τ).loc main_arg2) :=
  W6_untouched m c main_arg2 (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide)
theorem W6_main_arg5 (c : Dev nD) : W6 m c (Proc.devRef .tc main_arg5) = m ((c : Thread nD τ).loc main_arg5) :=
  W6_untouched m c main_arg5 (by decide) (by decide) (by decide) (by decide) (by decide) (by decide)
theorem W6_main_arg6 (c : Dev nD) : W6 m c (Proc.devRef .tc main_arg6) = m ((c : Thread nD τ).loc main_arg6) :=
  W6_untouched m c main_arg6 (by decide) (by decide) (by decide) (by decide) (by decide) (by decide)
theorem W6_main_arg7 (c : Dev nD) : W6 m c (Proc.devRef .tc main_arg7) = m ((c : Thread nD τ).loc main_arg7) :=
  W6_untouched m c main_arg7 (by decide) (by decide) (by decide) (by decide) (by decide) (by decide)

/-! ## The proof data family and the thread state -/

/-- No pipeline has a prefetched table. -/
abbrev adm : (p : Fin 3) → (pcfgs (F := F) p).Adm := fun p => (cfgs p).toPCfg_adm
/-- Every pipeline's proof data, each at its region's entry contents (a literal match on the pipeline's number). -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment: from the unscoped buffers at `W` to them at the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the register. -/
abbrev Tₙ (c : Dev nD) : sProp 𝕄 := iprop(StableHlo.held (c : Thread nD τ) (Pipeline.ucRefs τ sig) (W6 m c) ∗ ∃ r, prngReg c r)

/-! ## The regions as segments -/

-- unification against the pinned configuration may unfold plain definitions in a metavariable's type
set_option backward.isDefEq.respectTransparency.types false in
/-- Region 0 over the thread state: entered with every unscoped buffer at `W1`, left with them at `W2`. Its
    arrays are split out of the unscoped buffers on the way in and put back, at what the write-backs leave, on the way
    out; the generator register goes into the class invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration may unfold plain definitions in a metavariable's type
set_option backward.isDefEq.respectTransparency.types false in
/-- Region 1 over the thread state: entered with every unscoped buffer at `W3`, left with them at `W4`. Its
    arrays are split out of the unscoped buffers on the way in and put back, at what the write-backs leave, on the way
    out; the generator register goes into the class invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration may unfold plain definitions in a metavariable's type
set_option backward.isDefEq.respectTransparency.types false in
/-- Region 2 over the thread state: entered with every unscoped buffer at `W5`, left with them at `W6`. Its
    arrays are split out of the unscoped buffers on the way in and put back, at what the write-backs leave, on the way
    out; the generator register goes into the class invariant and comes back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    the final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE RUN, read at the result and the arguments: the result array ends at what region 2's write-backs leave, each
    argument array as launched. -/
theorem run : θ_run defs (onTc (τ := τ) (main (F := F))) ⟨m, fun _ => 0, ρ⟩ (fun r => ∀ c : Dev nD,
      r.2.mem ((c.tc : Thread nD τ).loc main_v50) = (dat2 (V5 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v50 (by decide))).trans (W6_arr m c 5),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run m ρ)

end Cert.Kernel.Frm

end
-- ==== Proof.KernelIdeal.Region0.lean ====
/- REGION 0 of @main, the pipeline of `cc0__linear_kernel`, at a parameter `V` (the TensorCore's buffer contents when the
   region is entered): each window's block at a point, what the body leaves in the output window's buffer as a function of
   the input blocks, the body's triple, the pipeline's proof data and its body obligation. The body belongs to the plainest
   class: every load and every store is of a whole staging buffer, one control case. -/
import proofs.«136928_j37177236914931_1_alg».proof.Proof.Gen.KernelIdeal.Launch
import proofs.«136928_j37177236914931_1_alg».proof.Proof.Gen.KernelIdeal.Skeleton
import proofs.«136928_j37177236914931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of full extents: the structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! # REGION 0 of @main: `cc0__linear_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the buffer still holds this point's block. The window is uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the buffer still holds this point's block (the weights: one block, fetched at the first point only). The window is uncut
    and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

/-! ## What the body leaves in the output window's buffer -/

/-- Window 2's staging buffer after the body, from the input windows' blocks: its one store, of the product of the
    two loaded blocks, as a piece. -/
def out0_2 (x0 : Vec F S5000x128 .f32) (x1 : Vec F S128x384 .f32) : Vec F S5000x384 .f32 :=
  View.canon [⟨r0_2, k0_pay1 (View.ld x0 r0_0) (View.ld x1 r0_1)⟩]

/-- The one store is of the whole buffer, so it covers it. -/
theorem cover0_2 (p0 : Vec F S5000x384 .f32) (y : S5000x384.Idx) :
    ∃ pc ∈ ([⟨r0_2, p0⟩] : List (View.Piece (Elt F) S5000x384 .f32)), y ∈ pc.1.set :=
  View.cover_of_tiled [⟨r0_2, p0⟩] S5000x384.size (by rfl) y

/-- The accesses' offsets, all zero. -/
theorem zeros0 : (![0, 0] : Fin 2 → Nat) = fun _ => 0 := funext fun a => by fin_cases a <;> rfl

/-- The reduced value: the loads are of whole buffers and the one store is of the whole buffer, so the output's buffer
    ends at the payload of the two input blocks. -/
theorem out0_2_eq (x0 : Vec F S5000x128 .f32) (x1 : Vec F S128x384 .f32) : out0_2 x0 x1 = k0_pay1 x0 x1 := by
  unfold out0_2
  rw [View.canon_unit_zero zeros0]
  simp only [View.ld_unit_zero (S := S5000x128) zeros0, View.ld_unit_zero (S := S128x384) zeros0]

/-! ## The body's triple -/

set_option maxHeartbeats 1000000 in
/-- The kernel body on whole staging memrefs, the inputs' at read contents `x0`, `x1` and the output's at anything, runs
    to the continuation holding the inputs' as they were and the output's at `out0_2` of the inputs'. The body also loads
    the output's buffer before it stores into it; nothing reads that value. -/
theorem sound_kernel0 (c : Dev nD) (E : Set ℕ) (i : grid0.Coords) (arg1 : Memref sig .tc .vmem S5000x128 .f32) (harg1 : arg1.IsWhole) (arg2 : Memref sig .tc .vmem S128x384 .f32) (harg2 : arg2.IsWhole) (arg3 : Memref sig .tc .vmem S5000x384 .f32) (harg3 : arg3.IsWhole)
    (x0 : Vec F S5000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KernelIdeal.Region1Runs.lean ====
/- Region 1 (the statistics kernel), first half: the body's run on whole staging memrefs.

   The body has one conditional, on the grid coordinate. At the first point it stores zeros into the two
   accumulator windows (4 and 5); at every point it stores the sum of the three input blocks into window 3,
   and into each accumulator its current contents plus a column reduction of that sum (window 4) or of its
   square (window 5). Every load and store is of a whole staging buffer, so a store leaves exactly its payload
   and a load reads exactly the contents. Two triples follow: one for the first point, one for the others. -/
import proofs.«136928_j37177236914931_1_alg».proof.Proof.Gen.KernelIdeal.Launch
import proofs.«136928_j37177236914931_1_alg».proof.Proof.Gen.KernelIdeal.Skeleton
import proofs.«136928_j37177236914931_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one conditional, as a function of the grid coordinates. -/
abbrev cond1_0 (i : grid1.Coords) : Prop := (Scalar.cmpi .ne (Scalar.extui (Scalar.cmpi .eq (BitVec.ofNat 32 (i 0).val) 0#32)) 0#32) = 1#1
/-- It holds at the first point only: decided over the ten points of the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## Whole-buffer stores -/

/-- The zero offsets of the whole-buffer rectangle, however spelt. -/
theorem hz : (![0, 0] : Fin 2 → Nat) = fun _ => 0 := funext fun a => by fin_cases a <;> rfl

/-- A store through the whole-shape rectangle at zero offsets, made LAST, leaves its payload: what the buffer reads
    afterwards is that payload, whatever it held and whatever the earlier stores were. -/
theorem read_writes_cons_unit_zero {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

/-! ## The body's two triples -/

set_option maxHeartbeats 1000000 in
/-- AT THE FIRST POINT (the coordinate is 0: the conditional is taken). On whole staging memrefs, the inputs' at read
    contents `x0 x1 x2` and the outputs' at anything, the body runs to the continuation holding the inputs' as they were,
    window 3's at the sum of the three blocks, and each accumulator's at one step from the zeros the body has just stored
    there. -/
theorem sound_kernel1_first (c : Dev nD) (E : Set ℕ) (i : grid1.Coords) (hc : cond1_0 i) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole)
    (x0 x1 x2 : Vec F S5000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 x2)
            ∗ owns (c : Thread nD τ) arg5 fullShare (k1_pay4 x0 x1 x2 (k1_pay1 (F := F)))
            ∗ owns (c : Thread nD τ) arg6 fullShare (k1_pay5 x0 x1 x2 (k1_pay2 (F := F)))) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_cons_unit_zero _ _ hz]
    simp only [View.readAt_eq_ld, View.ld_unit_zero (S := S5000x128) hz]
  isplitl [H4]
  · iexists _; isplitr
    swap; · iexact H4
    ipureintro
    rw [read_writes_cons_unit_zero _ _ hz]
    sl_unfold_run_names
    rw [View.readCov_unit_zero (S := S1x128) _ hz]
    simp only [View.readAt_eq_ld, View.ld_unit_zero (S := S5000x128) hz]
  iexists _; isplitr
  swap; · iexact H5
  ipureintro
  rw [read_writes_cons_unit_zero _ _ hz]
  sl_unfold_run_names
  rw [View.readCov_unit_zero (S := S1x128) _ hz]
  simp only [View.readAt_eq_ld, View.ld_unit_zero (S := S5000x128) hz]

set_option maxHeartbeats 1000000 in
/-- AT EVERY OTHER POINT (the conditional is not taken). As above, with the accumulators' memrefs at their current
    contents `a4 a5`: each is left one step further. -/
theorem sound_kernel1_next (c : Dev nD) (E : Set ℕ) (i : grid1.Coords) (hc : ¬cond1_0 i) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole)
    (x0 x1 x2 : Vec F S5000x128 .f32) (a4 a5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 x2)
            ∗ owns (c : Thread nD τ) arg5 fullShare (k1_pay4 x0 x1 x2 a4)
            ∗ owns (c : Thread nD τ) arg6 fullShare (k1_pay5 x0 x1 x2 a5)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0; subst hf1; subst hf2; subst hf4; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_cons_unit_zero _ _ hz]
    simp only [View.readAt_eq_ld, View.ld_unit_zero (S := S5000x128) hz]
  isplitl [H4]
  · iexists _; isplitr
    swap; · iexact H4
    ipureintro
    rw [read_writes_cons_unit_zero _ _ hz]
    simp only [View.readAt_eq_ld, View.ld_unit_zero (S := S5000x128) hz, View.ld_unit_zero (S := S1x128) hz]
  iexists _; isplitr
  swap; · iexact H5
  ipureintro
  rw [read_writes_cons_unit_zero _ _ hz]
  simp only [View.readAt_eq_ld, View.ld_unit_zero (S := S5000x128) hz, View.ld_unit_zero (S := S1x128) hz]

end Cert.KernelIdeal.Frm

end
-- ==== Proof.KernelIdeal.Region1.lean ====
/- Region 1 (the statistics kernel), second half, at the contents `V` the region is entered with: each window's
   block at a point; what the body leaves in each output window — window 3 the sum of the three input blocks, windows
   4 and 5 a running accumulation ACROSS THE GRID, by recursion on the point —; the pipeline's proof data; what each
   staging buffer holds when the body starts; and the body obligation at every point, by cases on whether the point is
   the first. -/
import proofs.«136928_j37177236914931_1_alg».proof.Proof.KernelIdeal.Region1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of the core's buffers when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output window's buffer -/

/-- Window 3's staging buffer after the body: the sum of the three input blocks. -/
def out1_3 (x0 x1 x2 : Vec F S5000x128 .f32) : Vec F S5000x128 .f32 := k1_pay3 x0 x1 x2

theorem out1_3_eq (x0 x1 x2 : Vec F S5000x128 .f32) : out1_3 x0 x1 x2 = k1_pay3 x0 x1 x2 := rfl

/-- THE ACCUMULATION in window 4: what its one staging buffer holds after the body at position `n`. At the first
    point, one step from the zeros the body stores there; at a later point, one step from what the point before left
    (the buffer is not written back in between). A step adds the column sums of the three blocks' sum. -/
def acc1_4 (c : Dev nD) : (n : ℕ) → n < cfg1.N → Vec F S1x128 .f32
  | 0, hn => k1_pay4 (iblk1 V c 0 ⟨0, hn⟩) (iblk1 V c 1 ⟨0, hn⟩) (iblk1 V c 2 ⟨0, hn⟩) (k1_pay1 (F := F))
  | n + 1, hn => k1_pay4 (iblk1 V c 0 ⟨n + 1, hn⟩) (iblk1 V c 1 ⟨n + 1, hn⟩) (iblk1 V c 2 ⟨n + 1, hn⟩) (acc1_4 c n (Nat.lt_of_succ_lt hn))

/-- Its two defining equations. -/
theorem acc1_4_zero (c : Dev nD) (hn : 0 < cfg1.N) :
    acc1_4 V c 0 hn = k1_pay4 (iblk1 V c 0 ⟨0, hn⟩) (iblk1 V c 1 ⟨0, hn⟩) (iblk1 V c 2 ⟨0, hn⟩) (k1_pay1 (F := F)) := rfl
theorem acc1_4_succ (c : Dev nD) (n : ℕ) (hn : n + 1 < cfg1.N) :
    acc1_4 V c (n + 1) hn = k1_pay4 (iblk1 V c 0 ⟨n + 1, hn⟩) (iblk1 V c 1 ⟨n + 1, hn⟩) (iblk1 V c 2 ⟨n + 1, hn⟩) (acc1_4 V c n (Nat.lt_of_succ_lt hn)) := rfl

/-- At the first point: one step from the zeros. -/
theorem acc1_4_first (c : Dev nD) (t : Fin cfg1.N) (h0 : t.val % 10 = 0) :
    acc1_4 V c t.val t.isLt = k1_pay4 (iblk1 V c 0 t) (iblk1 V c 1 t) (iblk1 V c 2 t) (k1_pay1 (F := F)) := by
  obtain ⟨n, hn⟩ := t
  cases n with
  | zero => exact rfl
  | succ n =>
    exfalso
    have hN : n + 1 < 10 := lt_of_lt_of_eq hn (show cfg1.N = 10 from N_1)
    dsimp only at h0
    omega

/-- At a later point: one step from what the point before left. -/
theorem acc1_4_next (c : Dev nD) (t : Fin cfg1.N) (h0 : ¬t.val % 10 = 0) :
    acc1_4 V c t.val t.isLt = k1_pay4 (iblk1 V c 0 t) (iblk1 V c 1 t) (iblk1 V c 2 t)
      (acc1_4 V c (t.val - 1) (Nat.lt_of_le_of_lt (Nat.sub_le _ _) t.isLt)) := by
  obtain ⟨n, hn⟩ := t
  cases n with
  | zero => exact absurd (Nat.zero_mod _) h0
  | succ n => exact rfl

/-- THE ACCUMULATION in window 5: what its one staging buffer holds after the body at position `n`. At the first
    point, one step from the zeros the body stores there; at a later point, one step from what the point before left
    (the buffer is not written back in between). A step adds the column sums of the square of the three blocks' sum. -/
def acc1_5 (c : Dev nD) : (n : ℕ) → n < cfg1.N → Vec F S1x128 .f32
  | 0, hn => k1_pay5 (iblk1 V c 0 ⟨0, hn⟩) (iblk1 V c 1 ⟨0, hn⟩) (iblk1 V c 2 ⟨0, hn⟩) (k1_pay2 (F := F))
  | n + 1, hn => k1_pay5 (iblk1 V c 0 ⟨n + 1, hn⟩) (iblk1 V c 1 ⟨n + 1, hn⟩) (iblk1 V c 2 ⟨n + 1, hn⟩) (acc1_5 c n (Nat.lt_of_succ_lt hn))

/-- Its two defining equations. -/
theorem acc1_5_zero (c : Dev nD) (hn : 0 < cfg1.N) :
    acc1_5 V c 0 hn = k1_pay5 (iblk1 V c 0 ⟨0, hn⟩) (iblk1 V c 1 ⟨0, hn⟩) (iblk1 V c 2 ⟨0, hn⟩) (k1_pay2 (F := F)) := rfl
theorem acc1_5_succ (c : Dev nD) (n : ℕ) (hn : n + 1 < cfg1.N) :
    acc1_5 V c (n + 1) hn = k1_pay5 (iblk1 V c 0 ⟨n + 1, hn⟩) (iblk1 V c 1 ⟨n + 1, hn⟩) (iblk1 V c 2 ⟨n + 1, hn⟩) (acc1_5 V c n (Nat.lt_of_succ_lt hn)) := rfl

/-- At the first point: one step from the zeros. -/
theorem acc1_5_first (c : Dev nD) (t : Fin cfg1.N) (h0 : t.val % 10 = 0) :
    acc1_5 V c t.val t.isLt = k1_pay5 (iblk1 V c 0 t) (iblk1 V c 1 t) (iblk1 V c 2 t) (k1_pay2 (F := F)) := by
  obtain ⟨n, hn⟩ := t
  cases n with
  | zero => exact rfl
  | succ n =>
    exfalso
    have hN : n + 1 < 10 := lt_of_lt_of_eq hn (show cfg1.N = 10 from N_1)
    dsimp only at h0
    omega

/-- At a later point: one step from what the point before left. -/
theorem acc1_5_next (c : Dev nD) (t : Fin cfg1.N) (h0 : ¬t.val % 10 = 0) :
    acc1_5 V c t.val t.isLt = k1_pay5 (iblk1 V c 0 t) (iblk1 V c 1 t) (iblk1 V c 2 t)
      (acc1_5 V c (t.val - 1) (Nat.lt_of_le_of_lt (Nat.sub_le _ _) t.isLt)) := by
  obtain ⟨n, hn⟩ := t
  cases n with
  | zero => exact absurd (Nat.zero_mod _) h0
  | succ n => exact rfl

/-! ## The pipeline's proof data -/

/-- The proof data of pipeline 1 on core `c`: the arrays as the region finds them (`V`); after the body at point `t`
    each input's buffer at its block, window 3's at the three blocks' sum, each accumulator's at its running value; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => acc1_4 V c t.val t.isLt
    | ⟨5, _⟩ => acc1_5 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = acc1_4 V c t.val t.isLt := by dsimp only [dat1]
theorem after1_5 (c : Dev nD) (t : Fin cfg1.N) : (dat1 V c).after 5 t = acc1_5 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point other than the first, accumulator window 4's staging buffer holds what the body left at the point
    before: the buffer is written back at the last point only, so not in between; the window is live and uncut. -/
theorem before1_4_next (c : Dev nD) (t : Fin cfg1.N) (h0 : ¬t.val % 10 = 0) (d) :
    (dat1 V c).before 4 t d = acc1_4 V c (t.val - 1) (Nat.lt_of_le_of_lt (Nat.sub_le _ _) t.isLt) := by
  have hN : t.val < 10 := lt_of_lt_of_eq t.isLt (show cfg1.N = 10 from N_1)
  rw [Dat.before_out_kept _ 4 rfl t (by omega) (Bool.eq_false_iff.mpr fun h => by have := (flush1_4 _).mp h; dsimp only at this; omega)
    (fun _ => rfl) (fun _ _ => rfl)]
  dsimp only [dat1]

/-- At a point other than the first, accumulator window 5's staging buffer holds what the body left at the point
    before: the buffer is written back at the last point only, so not in between; the window is live and uncut. -/
theorem before1_5_next (c : Dev nD) (t : Fin cfg1.N) (h0 : ¬t.val % 10 = 0) (d) :
    (dat1 V c).before 5 t d = acc1_5 V c (t.val - 1) (Nat.lt_of_le_of_lt (Nat.sub_le _ _) t.isLt) := by
  have hN : t.val < 10 := lt_of_lt_of_eq t.isLt (show cfg1.N = 10 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point. The inputs' memrefs hold their blocks; the closed form of the condition says whether the
    point is the first. At the first point the accumulators' buffers hold anything and the first triple applies; at any
    other they hold what the point before left, and the second applies. The invariant and the core's debt pass through
    unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5, out1_3_eq]
  by_cases h0 : t.val % 10 = 0
  · rw [acc1_4_first V c t h0, acc1_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1_first c Set.univ (grid1.coords t) ((hcond1_0 t).mpr h0) _ _ _ _ _ _ _ _ _ _ _ _
      (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_next V c t h0, acc1_5_next V c t h0]
    simp only [before1_4_next V c t h0, before1_5_next V c t h0]
    iintro ⟨HΦ, Ho, ⟨%d0, H0⟩, ⟨%d1, H1⟩, ⟨%d2, H2⟩, ⟨%d3, H3⟩, ⟨%d4, H4⟩, ⟨%d5, H5⟩⟩
    iapply (sound_kernel1_next c Set.univ (grid1.coords t) (fun h => h0 ((hcond1_0 t).mp h)) _ _ _ _ _ _ _ _ _ _ _ _
      (iblk1 V c 0 t) (iblk1 V c 1 t) (iblk1 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Frm

end
-- ==== Proof.KernelIdeal.Region2.lean ====
/- REGION 2 of @main, the pipeline of `cc2__norm_kernel`, at a parameter `V` (the TensorCore's buffer contents when the
   region is entered): each window's block at a point, what the body leaves in the output window's buffer as a function of
   the input blocks, the body's triple, the pipeline's proof data and its body obligation. The body belongs to the plainest
   class: every load and every store is of a whole staging buffer, one control case. -/
import proofs.«136928_j37177236914931_1_alg».proof.Proof.Gen.KernelIdeal.Launch
import proofs.«136928_j37177236914931_1_alg».proof.Proof.Gen.KernelIdeal.Skeleton
import proofs.«136928_j37177236914931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of full extents: the structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! # REGION 2 of @main: `cc2__norm_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved, so the buffer still holds this point's block. The window is uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved, so the buffer still holds this point's block (a single row: one block, fetched at the first point only). The window is uncut
    and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved, so the buffer still holds this point's block (a single row: one block, fetched at the first point only). The window is uncut
    and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): where the window is not
    fetched its block index has not moved, so the buffer still holds this point's block (a single row: one block, fetched at the first point only). The window is uncut
    and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): where the window is not
    fetched its block index has not moved, so the buffer still holds this point's block (a single row: one block, fetched at the first point only). The window is uncut
    and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 5's staging buffer after the body, from the input windows' blocks: its one store, of the block shifted,
    scaled twice, shifted again by the four rows and clamped below at zero, as a piece. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_0, k2_pay1 (View.ld x0 r2_0) (View.ld x1 r2_1) (View.ld x2 r2_1) (View.ld x3 r2_1) (View.ld x4 r2_1)⟩]

/-- The one store is of the whole buffer, so it covers it. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-- The accesses' offsets, all zero. -/
theorem zeros2 : (![0, 0] : Fin 2 → Nat) = fun _ => 0 := funext fun a => by fin_cases a <;> rfl

/-- The reduced value: the loads are of whole buffers and the one store is of the whole buffer, so the output's buffer
    ends at the payload of the five input blocks. -/
theorem out2_5_eq (x0 : Vec F S5000x128 .f32) (x1 : Vec F S1x128 .f32) (x2 : Vec F S1x128 .f32) (x3 : Vec F S1x128 .f32) (x4 : Vec F S1x128 .f32) :
    out2_5 x0 x1 x2 x3 x4 = k2_pay1 x0 x1 x2 x3 x4 := by
  unfold out2_5
  rw [View.canon_unit_zero zeros2]
  simp only [View.ld_unit_zero (S := S5000x128) zeros2, View.ld_unit_zero (S := S1x128) zeros2]

/-! ## The body's triple -/

set_option maxHeartbeats 1000000 in
/-- The kernel body on whole staging memrefs, the inputs' at read contents `x0 … x4` and the output's at anything, runs
    to the continuation holding the inputs' as they were and the output's at `out2_5` of the inputs'. The body also loads
    the output's buffer before it stores into it; nothing reads that value. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__norm_kernel i arg1 harg1 arg2 harg2 arg3 harg3 arg4 harg4 arg5 harg5 arg6 harg6) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KernelIdeal.Run.lean ====
/-
  @main as a sequence of segments — a stretch of host operations, a kernel region, a stretch, a region, a stretch, a
  region — and what every buffer holds at each boundary between two of them: the launch contents, then the host
  operations' results folded in, then each region's arrays at what its write-backs leave. Each region is entered with
  every unscoped buffer held at the boundary's contents and gives them back at the next boundary's; chaining the six
  segments gives the run: every weakly fair execution terminates, nothing faults, and the final memory holds each
  buffer at the last boundary's contents — in particular the result array at what the last region's write-backs leave,
  and every argument array as launched (no host operation and no region writes one).
-/
import proofs.«136928_j37177236914931_1_alg».proof.Proof.Gen.KernelIdeal.Launch
import proofs.«136928_j37177236914931_1_alg».proof.Proof.Gen.KernelIdeal.Skeleton
import proofs.«136928_j37177236914931_1_alg».proof.Proof.Gen.KernelIdeal.Points
import proofs.«136928_j37177236914931_1_alg».proof.Proof.Gen.KernelIdeal.Regions
import proofs.«136928_j37177236914931_1_alg».proof.Proof.KernelIdeal.Region0
import proofs.«136928_j37177236914931_1_alg».proof.Proof.KernelIdeal.Region1
import proofs.«136928_j37177236914931_1_alg».proof.Proof.KernelIdeal.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (an input array as entered, an output array with its
    write-backs folded in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (an input array as entered, an output array with its
    write-backs folded in), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third stretch of host operations (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (an input array as entered, an output array with its
    write-backs folded in), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## A buffer nothing writes ends as launched -/

/-- A buffer that no host operation writes and that is no region's array holds its launch contents at the end. -/
theorem W6_untouched (c : Dev nD) (b : Ref sig .tc) (h0 : b ∉ hostOps0_W) (h1 : b ∉ hostOps1_W) (h2 : b ∉ hostOps2_W)
    (hw0 : ∀ w, Pipeline.arrRef spec0 w ≠ b) (hw1 : ∀ w, Pipeline.arrRef spec1 w ≠ b) (hw2 : ∀ w, Pipeline.arrRef spec2 w ≠ b) :
    W6 m c (Proc.devRef .tc b) = m ((c : Thread nD τ).loc b) :=
  calc W6 m c (Proc.devRef .tc b)
    _ = W5 m c (Proc.devRef .tc b) := W6_of_ne m c b hw2
    _ = W4 m c (Proc.devRef .tc b) := StableHlo.after_of_writes_sub hostOps2 _ hostOps2_writes h2
    _ = W3 m c (Proc.devRef .tc b) := W4_of_ne m c b hw1
    _ = W2 m c (Proc.devRef .tc b) := StableHlo.after_of_writes_sub hostOps1 _ hostOps1_writes h1
    _ = W1 m c (Proc.devRef .tc b) := W2_of_ne m c b hw0
    _ = W0 m c (Proc.devRef .tc b) := StableHlo.after_of_writes_sub hostOps0 _ hostOps0_writes h0
    _ = m ((c : Thread nD τ).loc b) := rfl

/-- The first argument is region 0's first window's array, an input: the region leaves it as entered. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  W6_untouched m c main_arg1 (by decide) (by decide) (by decide) (by decide) (by decide) (by decide)
theorem W6_main_arg2 (c : Dev nD) : W6 m c (Proc.devRef .tc main_arg2) = m ((c : Thread nD τ).loc main_arg2) :=
  W6_untouched m c main_arg2 (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide)
theorem W6_main_arg5 (c : Dev nD) : W6 m c (Proc.devRef .tc main_arg5) = m ((c : Thread nD τ).loc main_arg5) :=
  W6_untouched m c main_arg5 (by decide) (by decide) (by decide) (by decide) (by decide) (by decide)
theorem W6_main_arg6 (c : Dev nD) : W6 m c (Proc.devRef .tc main_arg6) = m ((c : Thread nD τ).loc main_arg6) :=
  W6_untouched m c main_arg6 (by decide) (by decide) (by decide) (by decide) (by decide) (by decide)
theorem W6_main_arg7 (c : Dev nD) : W6 m c (Proc.devRef .tc main_arg7) = m ((c : Thread nD τ).loc main_arg7) :=
  W6_untouched m c main_arg7 (by decide) (by decide) (by decide) (by decide) (by decide) (by decide)

/-! ## The proof data family and the thread state -/

/-- No pipeline has a prefetched table. -/
abbrev adm : (p : Fin 3) → (pcfgs (F := F) p).Adm := fun p => (cfgs p).toPCfg_adm
/-- Every pipeline's proof data, each at its region's entry contents (a literal match on the pipeline's number). -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment: from the unscoped buffers at `W` to them at the operations' results. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the register. -/
abbrev Tₙ (c : Dev nD) : sProp 𝕄 := iprop(StableHlo.held (c : Thread nD τ) (Pipeline.ucRefs τ sig) (W6 m c) ∗ ∃ r, prngReg c r)

/-! ## The regions as segments -/

-- unification against the pinned configuration may unfold plain definitions in a metavariable's type
set_option backward.isDefEq.respectTransparency.types false in
/-- Region 0 over the thread state: entered with every unscoped buffer at `W1`, left with them at `W2`. Its
    arrays are split out of the unscoped buffers on the way in and put back, at what the write-backs leave, on the way
    out; the generator register goes into the class invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration may unfold plain definitions in a metavariable's type
set_option backward.isDefEq.respectTransparency.types false in
/-- Region 1 over the thread state: entered with every unscoped buffer at `W3`, left with them at `W4`. Its
    arrays are split out of the unscoped buffers on the way in and put back, at what the write-backs leave, on the way
    out; the generator register goes into the class invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration may unfold plain definitions in a metavariable's type
set_option backward.isDefEq.respectTransparency.types false in
/-- Region 2 over the thread state: entered with every unscoped buffer at `W5`, left with them at `W6`. Its
    arrays are split out of the unscoped buffers on the way in and put back, at what the write-backs leave, on the way
    out; the generator register goes into the class invariant and comes back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    the final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE RUN, read at the result and the arguments: the result array ends at what region 2's write-backs leave, each
    argument array as launched. -/
theorem run : θ_run defs (onTc (τ := τ) (main (F := F))) ⟨m, fun _ => 0, ρ⟩ (fun r => ∀ c : Dev nD,
      r.2.mem ((c.tc : Thread nD τ).loc main_v50) = (dat2 (V5 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v50 (by decide))).trans (W6_arr m c 5),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run m ρ)

end Cert.KernelIdeal.Frm

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«136928_j37177236914931_1_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.KPayloads.lean ====
/-
  The arithmetic of the three kernel bodies, entry by entry, at the exact values.

  * The first body multiplies a block of 5000 rows by the 128 × 384 matrix: entry (p, q) of the product is
    `∑ k < 128, x (p, k) · w (k, q)` (rounding to a shorter format is the identity here, and the accumulator starts at 0).
  * The second body adds three blocks entry by entry, `(a + b) + c`, and steps two row accumulators: the carried row
    plus, per column, the sum over the block's 5000 rows of the added block (respectively of its squares).
  * The third body takes a block and four rows `μ, ι, γ, β` and returns `max (((x − μ) · ι) · γ + β, 0)` entry by entry,
    each row read at the entry's column.
-/
import proofs.«136928_j37177236914931_1_alg».proof.Proof.Gen.KernelIdeal.Skeleton
import proofs.«136928_j37177236914931_1_alg».proof.Proof.LibDotSums
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-- The product block at (p, q): the plain sum along row p of the block and column q of the matrix. -/
theorem pay0_apply (x : Vec Ideal S5000x128 .f32) (w : Vec Ideal S128x384 .f32) (p : Fin 5000) (q : Fin 384) :
    k0_pay1 (F := Ideal) x w (ix2 p q) = ∑ k : Fin 128, x (ix2 p k) * w (ix2 k q) := by
  unfold k0_pay1
  rw [shapeCast_self]
  exact Cert.DotSums.matmul_zero_ix2 dot_S5000x128_S128x384_S5000x384_1_0_0_1_n_n none rfl rfl rfl rfl rfl rfl rfl rfl _ _ p q

/-- The added block at any entry. -/
theorem pay3_apply (a b c : Vec Ideal S5000x128 .f32) (i : S5000x128.Idx) :
    k1_pay3 (F := Ideal) a b c i = (a i + b i) + c i := by
  unfold k1_pay3
  simp only [shapeCast_self]
  rfl

/-- The column sum of a block over its 5000 rows, as the lane reduction spells it. -/
theorem colsum_apply (v : FVec Ideal S5000x128 .f32) (j : Fin 128) :
    multiReduction .add [0] S128 v 0x00000000#32 reduces_S5000x128_S128 (.inl rfl) rfl (ix1 j) = ∑ r : Fin 5000, v (ix2 r j) := by
  refine (Ideal.multiReduction_add_single v 0x00000000#32 reduces_S5000x128_S128 (.inl rfl) rfl (ix1 j)).trans ?_
  refine Finset.sum_congr rfl fun r _ => congrArg v ?_
  exact funext fun a => Fin.ext (by match a with | ⟨0, _⟩ => rfl | ⟨1, _⟩ => rfl)

/-- One step of the sum accumulator, at column j. -/
theorem pay4_apply (a b c : Vec Ideal S5000x128 .f32) (acc : Vec Ideal S1x128 .f32) (j : Fin 128) :
    k1_pay4 (F := Ideal) a b c acc (ix2 (0 : Fin 1) j)
      = acc (ix2 (0 : Fin 1) j) + ∑ r : Fin 5000, k1_pay3 (F := Ideal) a b c (ix2 r j) := by
  unfold k1_pay4
  rw [shapeCast_self]
  refine (addf_apply _ _ _).trans (congrArg (acc (ix2 (0 : Fin 1) j) + ·) ?_)
  refine (shapeCast_a_1a_apply _ shapeCasts_S128_S1x128 (0 : Fin 1) j).trans ?_
  exact colsum_apply _ j

/-- One step of the sum-of-squares accumulator, at column j. -/
theorem pay5_apply (a b c : Vec Ideal S5000x128 .f32) (acc : Vec Ideal S1x128 .f32) (j : Fin 128) :
    k1_pay5 (F := Ideal) a b c acc (ix2 (0 : Fin 1) j)
      = acc (ix2 (0 : Fin 1) j) + ∑ r : Fin 5000, k1_pay3 (F := Ideal) a b c (ix2 r j) * k1_pay3 (F := Ideal) a b c (ix2 r j) := by
  unfold k1_pay5
  rw [shapeCast_self]
  refine (addf_apply _ _ _).trans (congrArg (acc (ix2 (0 : Fin 1) j) + ·) ?_)
  refine (shapeCast_a_1a_apply _ shapeCasts_S128_S1x128 (0 : Fin 1) j).trans ?_
  exact colsum_apply _ j

/-- The zero rows the first point stores. -/
theorem pay1_apply (i : S1x128.Idx) : k1_pay1 (F := Ideal) i = 0 := by
  unfold k1_pay1; exact Ideal.ofBits_zero_f32
theorem pay2_apply (i : S1x128.Idx) : k1_pay2 (F := Ideal) i = 0 := by
  unfold k1_pay2; exact Ideal.ofBits_zero_f32

/-- The normalised block at (r, j). -/
theorem payN_apply (x : Vec Ideal S5000x128 .f32) (μ ι γ β : Vec Ideal S1x128 .f32) (r : Fin 5000) (j : Fin 128) :
    k2_pay1 (F := Ideal) x μ ι γ β (ix2 r j)
      = max ((((x (ix2 r j) - μ (ix2 (0 : Fin 1) j)) * ι (ix2 (0 : Fin 1) j)) * γ (ix2 (0 : Fin 1) j)) + β (ix2 (0 : Fin 1) j)) 0 := by
  unfold k2_pay1
  simp only [shapeCast_self]
  refine (maximumf_apply _ _ _).trans ?_
  refine congrArg₂ max ?_ Ideal.ofBits_zero_f32
  refine (addf_apply _ _ _).trans (congrArg₂ (· + ·) ?_ (broadcastTo_1b_ab_apply β broadcasts_S1x128_S5000x128 r j))
  refine (mulf_apply _ _ _).trans (congrArg₂ (· * ·) ?_ (broadcastTo_1b_ab_apply γ broadcasts_S1x128_S5000x128 r j))
  refine (mulf_apply _ _ _).trans (congrArg₂ (· * ·) ?_ (broadcastTo_1b_ab_apply ι broadcasts_S1x128_S5000x128 r j))
  exact (subf_apply _ _ _).trans (congrArg (x (ix2 r j) - ·) (broadcastTo_1b_ab_apply μ broadcasts_S1x128_S5000x128 r j))

end Cert.KernelIdeal.Val

end
-- ==== Proof.KDefs.lean ====
/-
  The kernel's intermediate arrays as functions of what they are computed from, index by index.

  * `GXW x w`: the [50000, 384] product of the feature array `x` with the [128, 384] matrix `w`, entry (n, q) the sum
    over k < 128 of `x (n, k) · w (k, q)`.
  * `Gnorm x μ ι γ β`: the normalised array, entry (n, j) being `max (((x (n, j) − μ j) · ι j) · γ j + β j, 0)`, the
    four rows stored as [1, 128] arrays.
-/
import proofs.«136928_j37177236914931_1_alg».proof.Proof.Gen.KernelIdeal
import Idealize.ShloMosaic.Lib.ValueIdx
import Idealize.ShloMosaic.PureOps.Ideal

noncomputable section

namespace Cert.KernelIdeal.Val

open Cert.KernelIdeal Idealize.ShloMosaic Idealize.ShloMosaic.ValueIdx

/-- The product array. -/
def GXW (x : S50000x128.Idx → EReal) (w : S128x384.Idx → EReal) : S50000x384.Idx → EReal :=
  fun i => ∑ k : Fin 128, x (ix2 ⟨(i 0).val, idx2_lt0 i⟩ k) * w (ix2 k ⟨(i 1).val, idx2_lt1 i⟩)

theorem GXW_apply (x : S50000x128.Idx → EReal) (w : S128x384.Idx → EReal) (n : Fin 50000) (q : Fin 384) :
    GXW x w (ix2 n q) = ∑ k : Fin 128, x (ix2 n k) * w (ix2 k q) := rfl

/-- The normalised array. -/
def Gnorm (x : S50000x128.Idx → EReal) (μ ι γ β : S1x128.Idx → EReal) : S50000x128.Idx → EReal :=
  fun i => max ((((x i - μ (ix2 (0 : Fin 1) ⟨(i 1).val, idx2_lt1 i⟩)) * ι (ix2 (0 : Fin 1) ⟨(i 1).val, idx2_lt1 i⟩))
    * γ (ix2 (0 : Fin 1) ⟨(i 1).val, idx2_lt1 i⟩)) + β (ix2 (0 : Fin 1) ⟨(i 1).val, idx2_lt1 i⟩)) 0

theorem Gnorm_apply (x : S50000x128.Idx → EReal) (μ ι γ β : S1x128.Idx → EReal) (n : Fin 50000) (j : Fin 128) :
    Gnorm x μ ι γ β (ix2 n j)
      = max ((((x (ix2 n j) - μ (ix2 (0 : Fin 1) j)) * ι (ix2 (0 : Fin 1) j)) * γ (ix2 (0 : Fin 1) j)) + β (ix2 (0 : Fin 1) j)) 0 := rfl

end Cert.KernelIdeal.Val

end
-- ==== Proof.KValue02.lean ====
/-
  The values the first and the third pipeline leave, at the exact values and at any contents `V` of the buffers when the
  pipeline is entered.

  * The first pipeline's output array, all 50000 rows, is the product of its first operand with the 128 × 384 matrix:
    entry (r, q) is `∑ k < 128, x (r, k) · w (k, q)`. Point `t` of the grid writes rows `5000 t … 5000 t + 4999`: the body
    multiplies block `t` of the operand by the whole matrix, and the ten blocks tile the array.
  * The third pipeline's output array is `max (((x − μ) · ι) · γ + β, 0)` entry by entry, each of the four rows read at the
    entry's column; again point `t` writes rows `5000 t … 5000 t + 4999` from block `t` of the operand and the whole rows.
-/
import proofs.«136928_j37177236914931_1_alg».proof.Proof.KernelIdeal.Region0
import proofs.«136928_j37177236914931_1_alg».proof.Proof.KernelIdeal.Region2
import proofs.«136928_j37177236914931_1_alg».proof.Proof.KPayloads
import proofs.«136928_j37177236914931_1_alg».proof.Proof.KDefs
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The first pipeline: the product, row block by row block -/

/-- The windows' arrays. -/
theorem arr0_0 : Pipeline.arrRef spec0 0 = main_arg0 := rfl
theorem arr0_1 : Pipeline.arrRef spec0 1 = main_v1 := rfl
theorem arr0_2 : Pipeline.arrRef spec0 2 = main_v2 := rfl

/-- The index maps over the grid: the operand's block moves with the output's down the rows, the matrix stays, and the
    output's row block index is below ten. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some point's. -/
theorem idx_onto0 : ∀ (q0 : Fin 10), ∃ t : Fin cfg0.N, win0_2.index t = ![q0.val, 0] :=
  (by decide +kernel : ∀ (q0 : Fin 10), ∃ t : Fin grid0.N, win0_2.index t = ![q0.val, 0])

/-- One block of the product: a block of 5000 rows that is rows `5000 b …` of `X`, times the whole matrix, is rows
    `5000 b …` of the product. -/
theorem prod_block (X : S50000x128.Idx → EReal) (W : S128x384.Idx → EReal)
    (x : Vec Ideal S5000x128 .f32) (w : Vec Ideal S128x384 .f32) (b : ℕ)
    (hx : ∀ (p : Fin 5000) (k : Fin 128) (h : b * 5000 + p.val < 50000), x (ix2 p k) = X (ix2 ⟨b * 5000 + p.val, h⟩ k))
    (hw : ∀ (k : Fin 128) (q : Fin 384), w (ix2 k q) = W (ix2 k q))
    (p : Fin 5000) (q : Fin 384) (i : S50000x384.Idx) (hi0 : (i 0).val = b * 5000 + p.val) (hi1 : (i 1).val = q.val) :
    k0_pay1 (F := Ideal) x w (ix2 p q) = GXW X W i := by
  rw [pay0_apply]
  unfold GXW
  refine Finset.sum_congr rfl fun k _ => ?_
  have h : b * 5000 + p.val < 50000 := hi0 ▸ idx2_lt0 i
  rw [hx p k h, hw k q]
  refine congrArg₂ (· * ·) (congrArg (fun a => X (ix2 a k)) (Fin.ext hi0.symm)) (congrArg (fun a => W (ix2 k a)) (Fin.ext hi1.symm))

/-- What point `t` writes back is block `t` of the product of the two arrays as the pipeline finds them. -/
theorem flushed0_eq (c : Dev nD) (t : Fin cfg0.N) :
    (Frm.dat0 (F := Ideal) V c).flushed 2 t = ((cfg0.win 2).blk t).view.read (Elt Ideal) (GXW (V c main_arg0) (V c main_v1)) := by
  show (cfg0.win 2).cut (grid0.coords t) ((Frm.dat0 (F := Ideal) V c).after 2 t) = _
  rw [Frm.after0_2, Frm.out0_2_eq]
  obtain ⟨e0, e1, e2, e3, e4, e5⟩ := idx_facts0 t
  funext j
  obtain ⟨p, q, rfl⟩ : ∃ (p : Fin 5000) (q : Fin 384), j = ix2 p q := ⟨j 0, j 1, eq_ix2 j⟩
  show k0_pay1 (F := Ideal) (Frm.iblk0 V c 0 t) (Frm.iblk0 V c 1 t) (ix2 p q)
    = GXW (V c main_arg0) (V c main_v1) (((cfg0.win 2).blk t).view.emb (ix2 p q))
  refine prod_block (V c main_arg0) (V c main_v1) _ _ (win0_2.index t (0 : Fin 2)) ?_ ?_ p q _ ?_ ?_
  · intro p k h
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  · intro k q
    show V c main_v1 (((cfg0.win 1).blk t).view.emb (ix2 k q)) = _
    refine congrArg (V c main_v1) ?_
    funext a; apply Fin.ext
    match a with
    | ⟨0, _⟩ => show win0_1.index t (0 : Fin 2) * 128 + 1 * k.val = k.val; omega
    | ⟨1, _⟩ => show win0_1.index t (1 : Fin 2) * 384 + 1 * q.val = q.val; omega
  · show win0_2.index t (0 : Fin 2) * 5000 + 1 * p.val = win0_2.index t (0 : Fin 2) * 5000 + p.val; omega
  · show win0_2.index t (1 : Fin 2) * 384 + 1 * q.val = q.val; omega

/-- An index of the output array is in point `t`'s block iff each coordinate is in the block's range on its axis. -/
theorem mem_blk0 (t : Fin cfg0.N) (i : S50000x384.Idx) :
    i ∈ ((cfg0.win 2).blk t).view.set ↔ ∀ a : Fin 2, win0_2.index t a * S5000x384.size a ≤ (i a).val ∧ (i a).val < win0_2.index t a * S5000x384.size a + S5000x384.size a := by
  show i ∈ ((View.whole main_v2).slice (win0_2.rect t)).set ↔ _
  rw [View.set_slice_whole, Rect.mem_set_unit]
  exact Iff.rfl

/-- Every index of the output array is in some point's block: row `r` is in the block of point `r / 5000`. -/
theorem cover0 (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 384 ≤ (i 1).val ∧ (i 1).val < win0_2.index t (1 : Fin 2) * 384 + 384; omega

/-- The first pipeline's output array after its ten points: the product. -/
theorem final0 (c : Dev nD) : (Frm.dat0 (F := Ideal) V c).arrAt 2 cfg0.N = GXW (V c main_arg0) (V c main_v1) :=
  (Frm.dat0 (F := Ideal) V c).arrAt_eq_of_cover 2 (GXW (V c main_arg0) (V c main_v1)) (fun t _ => flushed0_eq V c t) cover0

/-! ## The third pipeline: the normalised array, row block by row block -/

/-- The windows' arrays. -/
theorem arr2_0 : Pipeline.arrRef spec2 0 = main_v34_0 := rfl
theorem arr2_1 : Pipeline.arrRef spec2 1 = main_v46 := rfl
theorem arr2_2 : Pipeline.arrRef spec2 2 = main_v47 := rfl
theorem arr2_3 : Pipeline.arrRef spec2 3 = main_v48 := rfl
theorem arr2_4 : Pipeline.arrRef spec2 4 = main_v49 := rfl
theorem arr2_5 : Pipeline.arrRef spec2 5 = main_v50 := rfl

/-- The index maps over the grid: the operand's block moves with the output's down the rows, the four rows stay, and the
    output's row block index is below ten. -/
theorem idx_facts2 : ∀ t : Fin cfg2.N, win2_0.index t (0 : Fin 2) = win2_5.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0
    ∧ win2_5.index t (0 : Fin 2) ≤ 9 :=
  (by decide +kernel : ∀ t : Fin grid2.N, _)

/-- Every row block of the output is some point's. -/
theorem idx_onto2 : ∀ (q0 : Fin 10), ∃ t : Fin cfg2.N, win2_5.index t = ![q0.val, 0] :=
  (by decide +kernel : ∀ (q0 : Fin 10), ∃ t : Fin grid2.N, win2_5.index t = ![q0.val, 0])

/-- One block of the normalised array: a block of 5000 rows that is rows `5000 b …` of `X`, normalised by the four whole
    rows, is rows `5000 b …` of the normalised array. -/
theorem norm_block (X : S50000x128.Idx → EReal) (M I C B : S1x128.Idx → EReal)
    (x : Vec Ideal S5000x128 .f32) (μ ι γ β : Vec Ideal S1x128 .f32) (b : ℕ)
    (hx : ∀ (p : Fin 5000) (k : Fin 128) (h : b * 5000 + p.val < 50000), x (ix2 p k) = X (ix2 ⟨b * 5000 + p.val, h⟩ k))
    (hμ : ∀ k : Fin 128, μ (ix2 (0 : Fin 1) k) = M (ix2 (0 : Fin 1) k))
    (hι : ∀ k : Fin 128, ι (ix2 (0 : Fin 1) k) = I (ix2 (0 : Fin 1) k))
    (hγ : ∀ k : Fin 128, γ (ix2 (0 : Fin 1) k) = C (ix2 (0 : Fin 1) k))
    (hβ : ∀ k : Fin 128, β (ix2 (0 : Fin 1) k) = B (ix2 (0 : Fin 1) k))
    (p : Fin 5000) (q : Fin 128) (i : S50000x128.Idx) (hi0 : (i 0).val = b * 5000 + p.val) (hi1 : (i 1).val = q.val) :
    k2_pay1 (F := Ideal) x μ ι γ β (ix2 p q) = Gnorm X M I C B i := by
  have h : b * 5000 + p.val < 50000 := hi0 ▸ idx2_lt0 i
  have hi : i = ix2 ⟨b * 5000 + p.val, h⟩ q :=
    (eq_ix2 i).trans (congrArg₂ ix2 (Fin.ext hi0) (Fin.ext hi1))
  rw [payN_apply, hi, Gnorm_apply, hx p q h, hμ, hι, hγ, hβ]

/-- What point `t` writes back is block `t` of the normalised array of the five arrays as the pipeline finds them. -/
theorem flushed2_eq (c : Dev nD) (t : Fin cfg2.N) :
    (Frm.dat2 (F := Ideal) V c).flushed 5 t
      = ((cfg2.win 5).blk t).view.read (Elt Ideal) (Gnorm (V c main_v34_0) (V c main_v46) (V c main_v47) (V c main_v48) (V c main_v49)) := by
  show (cfg2.win 5).cut (grid2.coords t) ((Frm.dat2 (F := Ideal) V c).after 5 t) = _
  rw [Frm.after2_5, Frm.out2_5_eq]
  obtain ⟨e0, e1, e2, e3, e4, e5, e6, e7, e8, e9, e10, e11⟩ := idx_facts2 t
  funext j
  obtain ⟨p, q, rfl⟩ : ∃ (p : Fin 5000) (q : Fin 128), j = ix2 p q := ⟨j 0, j 1, eq_ix2 j⟩
  show k2_pay1 (F := Ideal) (Frm.iblk2 V c 0 t) (Frm.iblk2 V c 1 t) (Frm.iblk2 V c 2 t) (Frm.iblk2 V c 3 t) (Frm.iblk2 V c 4 t) (ix2 p q)
    = Gnorm (V c main_v34_0) (V c main_v46) (V c main_v47) (V c main_v48) (V c main_v49) (((cfg2.win 5).blk t).view.emb (ix2 p q))
  refine norm_block (V c main_v34_0) (V c main_v46) (V c main_v47) (V c main_v48) (V c main_v49) _ _ _ _ _
    (win2_5.index t (0 : Fin 2)) ?_ ?_ ?_ ?_ ?_ p q _ ?_ ?_
  · intro p k h
    show V c main_v34_0 (((cfg2.win 0).blk t).view.emb (ix2 p k)) = _
    refine congrArg (V c main_v34_0) ?_
    funext a; apply Fin.ext
    match a with
    | ⟨0, _⟩ => show win2_0.index t (0 : Fin 2) * 5000 + 1 * p.val = win2_5.index t (0 : Fin 2) * 5000 + p.val; omega
    | ⟨1, _⟩ => show win2_0.index t (1 : Fin 2) * 128 + 1 * k.val = k.val; omega
  · intro k
    show V c main_v46 (((cfg2.win 1).blk t).view.emb (ix2 (0 : Fin 1) k)) = _
    refine congrArg (V c main_v46) ?_
    funext a; apply Fin.ext
    match a with
    | ⟨0, _⟩ => show win2_1.index t (0 : Fin 2) * 1 + 1 * 0 = 0; omega
    | ⟨1, _⟩ => show win2_1.index t (1 : Fin 2) * 128 + 1 * k.val = k.val; omega
  · intro k
    show V c main_v47 (((cfg2.win 2).blk t).view.emb (ix2 (0 : Fin 1) k)) = _
    refine congrArg (V c main_v47) ?_
    funext a; apply Fin.ext
    match a with
    | ⟨0, _⟩ => show win2_2.index t (0 : Fin 2) * 1 + 1 * 0 = 0; omega
    | ⟨1, _⟩ => show win2_2.index t (1 : Fin 2) * 128 + 1 * k.val = k.val; omega
  · intro k
    show V c main_v48 (((cfg2.win 3).blk t).view.emb (ix2 (0 : Fin 1) k)) = _
    refine congrArg (V c main_v48) ?_
    funext a; apply Fin.ext
    match a with
    | ⟨0, _⟩ => show win2_3.index t (0 : Fin 2) * 1 + 1 * 0 = 0; omega
    | ⟨1, _⟩ => show win2_3.index t (1 : Fin 2) * 128 + 1 * k.val = k.val; omega
  · intro k
    show V c main_v49 (((cfg2.win 4).blk t).view.emb (ix2 (0 : Fin 1) k)) = _
    refine congrArg (V c main_v49) ?_
    funext a; apply Fin.ext
    match a with
    | ⟨0, _⟩ => show win2_4.index t (0 : Fin 2) * 1 + 1 * 0 = 0; omega
    | ⟨1, _⟩ => show win2_4.index t (1 : Fin 2) * 128 + 1 * k.val = k.val; omega
  · show win2_5.index t (0 : Fin 2) * 5000 + 1 * p.val = win2_5.index t (0 : Fin 2) * 5000 + p.val; omega
  · show win2_5.index t (1 : Fin 2) * 128 + 1 * q.val = q.val; omega

/-- An index of the output array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v50).slice (win2_5.rect t)).set ↔ _
  rw [View.set_slice_whole, Rect.mem_set_unit]
  exact Iff.rfl

/-- Every index of the output array is in some point's block: row `r` is in the block of point `r / 5000`. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The third pipeline's output array after its ten points: the normalised array. -/
theorem final2 (c : Dev nD) : (Frm.dat2 (F := Ideal) V c).arrAt 5 cfg2.N
    = Gnorm (V c main_v34_0) (V c main_v46) (V c main_v47) (V c main_v48) (V c main_v49) :=
  (Frm.dat2 (F := Ideal) V c).arrAt_eq_of_cover 5 (Gnorm (V c main_v34_0) (V c main_v46) (V c main_v47) (V c main_v48) (V c main_v49))
    (fun t _ => flushed2_eq V c t) cover2

end Cert.KernelIdeal.Val

end
-- ==== Proof.LibBlockedSum.lean ====
/-
  A sum over `Fin N` accumulated block by block. Cut `0, …, N − 1` into consecutive blocks of `B` indices. The partial sum
  over the indices below `B · k` is empty at `k = 0`; passing from `k` to `k + 1` adds the sum over the `B` indices
  `B · k, …, B · k + B − 1` of block `k`; and once `B · k` reaches `N` the partial sum is the whole sum. The three
  statements hold in any additive commutative monoid (no subtraction, no cancellation), so they apply to the extended
  reals as they are.
-/
import Mathlib.Algebra.BigOperators.Fin
import Mathlib.Tactic.Common

open scoped BigOperators

namespace Cert.LibBlockedSum

variable {M : Type*} [AddCommMonoid M] {N : ℕ}

/-- The `j`-th index of block `k` lies below `N` when blocks `0, …, k` do. -/
theorem block_lt {B k : ℕ} (h : B * (k + 1) ≤ N) (j : Fin B) : B * k + j.val < N := by
  have hj := j.isLt
  have e : B * (k + 1) = B * k + B := Nat.mul_add_one B k
  omega

/-- Before the first block nothing has been summed. -/
theorem sum_lt_zero (B : ℕ) (f : Fin N → M) :
    ∑ i ∈ Finset.univ.filter (fun i : Fin N => i.val < B * 0), f i = 0 := by
  rw [Finset.filter_false_of_mem fun i _ => by simp]
  exact Finset.sum_empty

/-- The partial sum below `B · (k + 1)` is the partial sum below `B · k` plus the sum over block `k`. -/
theorem sum_lt_succ (B k : ℕ) (h : B * (k + 1) ≤ N) (f : Fin N → M) :
    ∑ i ∈ Finset.univ.filter (fun i : Fin N => i.val < B * (k + 1)), f i
      = (∑ i ∈ Finset.univ.filter (fun i : Fin N => i.val < B * k), f i) + ∑ j : Fin B, f ⟨B * k + j.val, block_lt h j⟩ := by
  have e : B * (k + 1) = B * k + B := Nat.mul_add_one B k
  -- the indices below `B · (k + 1)` are those below `B · k` together with those of block `k`
  have hsplit : (Finset.univ.filter fun i : Fin N => i.val < B * (k + 1))
      = (Finset.univ.filter fun i : Fin N => i.val < B * k)
        ∪ (Finset.univ.filter fun i : Fin N => B * k ≤ i.val ∧ i.val < B * (k + 1)) := by
    ext i
    simp only [Finset.mem_filter, Finset.mem_univ, true_and, Finset.mem_union]
    omega
  have hdisj : Disjoint (Finset.univ.filter fun i : Fin N => i.val < B * k)
      (Finset.univ.filter fun i : Fin N => B * k ≤ i.val ∧ i.val < B * (k + 1)) := by
    rw [Finset.disjoint_filter]
    intro i _ h1 h2
    omega
  rw [hsplit, Finset.sum_union hdisj]
  congr 1
  -- block `k` is the image of `Fin B` under `j ↦ B · k + j`
  symm
  refine Finset.sum_bij (fun j _ => (⟨B * k + j.val, block_lt h j⟩ : Fin N)) ?_ ?_ ?_ ?_
  · intro j _
    have hj := j.isLt
    simp only [Finset.mem_filter, Finset.mem_univ, true_and]
    omega
  · intro a _ b _ hab
    have := congrArg Fin.val hab
    simp only at this
    exact Fin.ext (by omega)
  · intro i hi
    simp only [Finset.mem_filter, Finset.mem_univ, true_and] at hi
    exact ⟨⟨i.val - B * k, by omega⟩, Finset.mem_univ _, Fin.ext (by simp only; omega)⟩
  · intro j _
    rfl

/-- Once the blocks cover `0, …, N − 1` the partial sum is the whole sum. -/
theorem sum_lt_all (B k : ℕ) (h : N ≤ B * k) (f : Fin N → M) :
    ∑ i ∈ Finset.univ.filter (fun i : Fin N => i.val < B * k), f i = ∑ i, f i := by
  rw [Finset.filter_true_of_mem fun i _ => lt_of_lt_of_le i.isLt h]

end Cert.LibBlockedSum
-- ==== Proof.KValue1.lean ====
/-
  The values the second pipeline leaves, at the exact values and at any contents `V` of the buffers when the pipeline is
  entered.

  Write `s = (a + b) + c` for the entry-by-entry sum of the three input arrays, each of 50000 rows and 128 columns.
  * The first output array is `s`: point `t` of the grid writes rows `5000 t … 5000 t + 4999`, the sum of block `t` of
    each input, and the ten blocks tile the array.
  * The second output, one row of 128 columns, is written back once, after the last point. It then holds the running
    value of an accumulator that starts at zero and to which point `t` adds, per column, the sum of `s` over the rows
    of block `t`. After point `n` it is the sum of `s` over the rows below `5000 (n + 1)` (induction on `n`), so after
    the tenth point the sum over all 50000 rows.
  * The third output is the same with the squares `s · s`.
-/
import proofs.«136928_j37177236914931_1_alg».proof.Proof.KernelIdeal.Region1
import proofs.«136928_j37177236914931_1_alg».proof.Proof.KPayloads
import proofs.«136928_j37177236914931_1_alg».proof.Proof.LibBlockedSum
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The windows' arrays. -/
theorem arr1_0 : Pipeline.arrRef spec1 0 = main_v3 := rfl
theorem arr1_1 : Pipeline.arrRef spec1 1 = main_v23 := rfl
theorem arr1_2 : Pipeline.arrRef spec1 2 = main_v33 := rfl
theorem arr1_3 : Pipeline.arrRef spec1 3 = main_v34_0 := rfl
theorem arr1_4 : Pipeline.arrRef spec1 4 = main_v34_1 := rfl
theorem arr1_5 : Pipeline.arrRef spec1 5 = main_v34_2 := rfl

/-- The entry-by-entry sum `(a + b) + c` of three arrays. -/
def add3 (A B C : S50000x128.Idx → EReal) : S50000x128.Idx → EReal := fun i => (A i + B i) + C i
theorem add3_apply (A B C : S50000x128.Idx → EReal) (i : S50000x128.Idx) : add3 A B C i = (A i + B i) + C i := rfl

/-- The entry-by-entry sum of the three input arrays as the pipeline finds them. -/
def sArr (c : Dev nD) : S50000x128.Idx → EReal := add3 (V c main_v3) (V c main_v23) (V c main_v33)
theorem sArr_apply (c : Dev nD) (i : S50000x128.Idx) :
    sArr V c i = add3 (V c main_v3) (V c main_v23) (V c main_v33) i := rfl

/-- The grid has ten points. -/
theorem nine_lt : 9 < cfg1.N := lt_of_lt_of_eq (by decide) (show (10 : ℕ) = cfg1.N from N_1.symm)

/-- The index maps over the grid: the three inputs' blocks and the first output's are block `t` down the rows at point
    `t`, and the two row outputs' block is the whole row at every point. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## One block of the sum -/

/-- A block of 5000 rows of each input that is rows `5000 n …` of its array: the blocks' sum is rows `5000 n …` of the
    arrays' sum. -/
theorem add_block (A B C : S50000x128.Idx → EReal) (a b c : Vec Ideal S5000x128 .f32) (n : ℕ)
    (ha : ∀ (p : Fin 5000) (k : Fin 128) (h : 5000 * n + p.val < 50000), a (ix2 p k) = A (ix2 ⟨5000 * n + p.val, h⟩ k))
    (hb : ∀ (p : Fin 5000) (k : Fin 128) (h : 5000 * n + p.val < 50000), b (ix2 p k) = B (ix2 ⟨5000 * n + p.val, h⟩ k))
    (hc : ∀ (p : Fin 5000) (k : Fin 128) (h : 5000 * n + p.val < 50000), c (ix2 p k) = C (ix2 ⟨5000 * n + p.val, h⟩ k))
    (p : Fin 5000) (q : Fin 128) (h : 5000 * n + p.val < 50000) :
    k1_pay3 (F := Ideal) a b c (ix2 p q)
      = (A (ix2 ⟨5000 * n + p.val, h⟩ q) + B (ix2 ⟨5000 * n + p.val, h⟩ q)) + C (ix2 ⟨5000 * n + p.val, h⟩ q) := by
  rw [pay3_apply, ha p q h, hb p q h, hc p q h]

/-- The body's sum at point `t`, at row `p` and column `q` of the block: the arrays' sum at row `5000 t + p`. -/
theorem step_entry (c : Dev nD) (t : Fin cfg1.N) (p : Fin 5000) (q : Fin 128) (h : 5000 * t.val + p.val < 50000) :
    k1_pay3 (F := Ideal) (Frm.iblk1 V c 0 t) (Frm.iblk1 V c 1 t) (Frm.iblk1 V c 2 t) (ix2 p q)
      = sArr V c (ix2 ⟨5000 * t.val + p.val, h⟩ q) := by
  obtain ⟨e00, e01, e10, e11, e20, e21, _⟩ := idx_facts1 t
  refine (add_block (V c main_v3) (V c main_v23) (V c main_v33) _ _ _ t.val ?_ ?_ ?_ p q h).trans rfl
  · intro p k h
    show V c main_v3 (((cfg1.win 0).blk t).view.emb (ix2 p k)) = _
    refine congrArg (V c main_v3) ?_
    funext a; apply Fin.ext
    match a with
    | ⟨0, _⟩ => show win1_0.index t (0 : Fin 2) * 5000 + 1 * p.val = 5000 * t.val + p.val; omega
    | ⟨1, _⟩ => show win1_0.index t (1 : Fin 2) * 128 + 1 * k.val = k.val; omega
  · intro p k h
    show V c main_v23 (((cfg1.win 1).blk t).view.emb (ix2 p k)) = _
    refine congrArg (V c main_v23) ?_
    funext a; apply Fin.ext
    match a with
    | ⟨0, _⟩ => show win1_1.index t (0 : Fin 2) * 5000 + 1 * p.val = 5000 * t.val + p.val; omega
    | ⟨1, _⟩ => show win1_1.index t (1 : Fin 2) * 128 + 1 * k.val = k.val; omega
  · intro p k h
    show V c main_v33 (((cfg1.win 2).blk t).view.emb (ix2 p k)) = _
    refine congrArg (V c main_v33) ?_
    funext a; apply Fin.ext
    match a with
    | ⟨0, _⟩ => show win1_2.index t (0 : Fin 2) * 5000 + 1 * p.val = 5000 * t.val + p.val; omega
    | ⟨1, _⟩ => show win1_2.index t (1 : Fin 2) * 128 + 1 * k.val = k.val; omega

/-- A row of block `t` is a row of the array. -/
theorem row_lt (t : Fin cfg1.N) (p : Fin 5000) : 5000 * t.val + p.val < 50000 := by
  have ht : t.val < 10 := lt_of_lt_of_eq t.isLt (show cfg1.N = 10 from N_1)
  have hp := p.isLt
  omega

/-! ## The first output: the sum, row block by row block -/

/-- What point `t` writes back is block `t` of the sum of the three arrays as the pipeline finds them. -/
theorem flushed1_3_eq (c : Dev nD) (t : Fin cfg1.N) :
    (Frm.dat1 (F := Ideal) V c).flushed 3 t = ((cfg1.win 3).blk t).view.read (Elt Ideal) (sArr V c) := by
  show (cfg1.win 3).cut (grid1.coords t) ((Frm.dat1 (F := Ideal) V c).after 3 t) = _
  rw [Frm.after1_3, Frm.out1_3_eq]
  obtain ⟨_, _, _, _, _, _, e30, e31, _⟩ := idx_facts1 t
  funext j
  obtain ⟨p, q, rfl⟩ : ∃ (p : Fin 5000) (q : Fin 128), j = ix2 p q := ⟨j 0, j 1, eq_ix2 j⟩
  show k1_pay3 (F := Ideal) (Frm.iblk1 V c 0 t) (Frm.iblk1 V c 1 t) (Frm.iblk1 V c 2 t) (ix2 p q)
    = sArr V c (((cfg1.win 3).blk t).view.emb (ix2 p q))
  rw [step_entry V c t p q (row_lt t p)]
  refine congrArg (sArr V c) ?_
  funext a; apply Fin.ext
  match a with
  | ⟨0, _⟩ => show 5000 * t.val + p.val = win1_3.index t (0 : Fin 2) * 5000 + 1 * p.val; omega
  | ⟨1, _⟩ => show q.val = win1_3.index t (1 : Fin 2) * 128 + 1 * q.val; omega

/-- An index of the first output array is in point `t`'s block iff each coordinate is in the block's range on its axis. -/
theorem mem_blk1_3 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v34_0).slice (win1_3.rect t)).set ↔ _
  rw [View.set_slice_whole, Rect.mem_set_unit]
  exact Iff.rfl

/-- Every index of the first output array is in some point's block: row `r` is in the block of point `r / 5000`. -/
theorem cover1_3 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by omega⟩
  obtain ⟨_, _, _, _, _, _, e30, e31, _⟩ := idx_facts1 t
  have q0 : win1_3.index t (0 : Fin 2) = (i 0).val / 5000 := e30
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE FIRST OUTPUT after the ten points: the sum of the three arrays. -/
theorem final1_3 (c : Dev nD) : (Frm.dat1 (F := Ideal) V c).arrAt 3 cfg1.N = sArr V c :=
  (Frm.dat1 (F := Ideal) V c).arrAt_eq_of_cover 3 (sArr V c) (fun t _ => flushed1_3_eq V c t) cover1_3

/-! ## The accumulators after each point -/

/-- After point `n` the sum accumulator holds, per column, the sum of `s` over the rows below `5000 (n + 1)`. -/
theorem acc4_sum (c : Dev nD) (j : Fin 128) (n : ℕ) (h : n < cfg1.N) :
    Frm.acc1_4 (F := Ideal) V c n h (ix2 (0 : Fin 1) j)
      = ∑ i ∈ Finset.univ.filter (fun i : Fin 50000 => i.val < 5000 * (n + 1)), sArr V c (ix2 i j) := by
  have hN : cfg1.N = 10 := N_1
  induction n with
  | zero =>
    rw [Frm.acc1_4_zero, pay4_apply, pay1_apply, zero_add]
    refine Eq.trans ?_ ((Cert.LibBlockedSum.sum_lt_succ 5000 0 (by omega) (fun i : Fin 50000 => sArr V c (ix2 i j))).trans
      (by rw [Cert.LibBlockedSum.sum_lt_zero, zero_add])).symm
    exact Finset.sum_congr rfl fun r _ => step_entry V c ⟨0, h⟩ r j _
  | succ n ih =>
    rw [Frm.acc1_4_succ, pay4_apply, ih (Nat.lt_of_succ_lt h)]
    refine Eq.trans ?_ (Cert.LibBlockedSum.sum_lt_succ 5000 (n + 1) (by omega) (fun i : Fin 50000 => sArr V c (ix2 i j))).symm
    refine congrArg (_ + ·) (Finset.sum_congr rfl fun r _ => ?_)
    exact step_entry V c ⟨n + 1, h⟩ r j _

/-- After point `n` the sum-of-squares accumulator holds, per column, the sum of `s · s` over the rows below
    `5000 (n + 1)`. -/
theorem acc5_sum (c : Dev nD) (j : Fin 128) (n : ℕ) (h : n < cfg1.N) :
    Frm.acc1_5 (F := Ideal) V c n h (ix2 (0 : Fin 1) j)
      = ∑ i ∈ Finset.univ.filter (fun i : Fin 50000 => i.val < 5000 * (n + 1)), sArr V c (ix2 i j) * sArr V c (ix2 i j) := by
  have hN : cfg1.N = 10 := N_1
  induction n with
  | zero =>
    rw [Frm.acc1_5_zero, pay5_apply, pay2_apply, zero_add]
    refine Eq.trans ?_ ((Cert.LibBlockedSum.sum_lt_succ 5000 0 (by omega)
      (fun i : Fin 50000 => sArr V c (ix2 i j) * sArr V c (ix2 i j))).trans
      (by rw [Cert.LibBlockedSum.sum_lt_zero, zero_add])).symm
    exact Finset.sum_congr rfl fun r _ => congrArg₂ (· * ·) (step_entry V c ⟨0, h⟩ r j _) (step_entry V c ⟨0, h⟩ r j _)
  | succ n ih =>
    rw [Frm.acc1_5_succ, pay5_apply, ih (Nat.lt_of_succ_lt h)]
    refine Eq.trans ?_ (Cert.LibBlockedSum.sum_lt_succ 5000 (n + 1) (by omega)
      (fun i : Fin 50000 => sArr V c (ix2 i j) * sArr V c (ix2 i j))).symm
    refine congrArg (_ + ·) (Finset.sum_congr rfl fun r _ => ?_)
    exact congrArg₂ (· * ·) (step_entry V c ⟨n + 1, h⟩ r j _) (step_entry V c ⟨n + 1, h⟩ r j _)

/-! ## The two row outputs: written back once, after the last point -/

/-- The accumulators' values do not depend on how the point's position is spelled. -/
theorem acc4_congr (c : Dev nD) (n m : ℕ) (e : n = m) (hn : n < cfg1.N) (hm : m < cfg1.N) :
    Frm.acc1_4 (F := Ideal) V c n hn = Frm.acc1_4 (F := Ideal) V c m hm := by subst e; rfl
theorem acc5_congr (c : Dev nD) (n m : ℕ) (e : n = m) (hn : n < cfg1.N) (hm : m < cfg1.N) :
    Frm.acc1_5 (F := Ideal) V c n hn = Frm.acc1_5 (F := Ideal) V c m hm := by subst e; rfl

/-- The one point that writes the sums back, the last, writes the accumulator's value after it: the block is the whole row. -/
theorem flushed1_4_eq (c : Dev nD) (t : Fin cfg1.N) (hf : (cfg1.win 4).flush t = true) :
    (Frm.dat1 (F := Ideal) V c).flushed 4 t = ((cfg1.win 4).blk t).view.read (Elt Ideal) (Frm.acc1_4 (F := Ideal) V c 9 nine_lt) := by
  show (cfg1.win 4).cut (grid1.coords t) ((Frm.dat1 (F := Ideal) V c).after 4 t) = _
  rw [Frm.after1_4]
  obtain ⟨_, _, _, _, _, _, _, _, e40, e41, _⟩ := idx_facts1 t
  have ht : t.val = 9 := by
    have h9 := (flush1_4 t).mp hf
    have hlt : t.val < 10 := lt_of_lt_of_eq t.isLt (show cfg1.N = 10 from N_1)
    omega
  funext y
  obtain ⟨z, q, rfl⟩ : ∃ (z : Fin 1) (q : Fin 128), y = ix2 z q := ⟨y 0, y 1, eq_ix2 y⟩
  show Frm.acc1_4 (F := Ideal) V c t.val t.isLt (ix2 z q)
    = Frm.acc1_4 (F := Ideal) V c 9 nine_lt (((cfg1.win 4).blk t).view.emb (ix2 z q))
  rw [acc4_congr V c t.val 9 ht t.isLt nine_lt]
  refine congrArg (Frm.acc1_4 (F := Ideal) V c 9 nine_lt) ?_
  funext a; apply Fin.ext
  match a with
  | ⟨0, _⟩ => show z.val = win1_4.index t (0 : Fin 2) * 1 + 1 * z.val; omega
  | ⟨1, _⟩ => show q.val = win1_4.index t (1 : Fin 2) * 128 + 1 * q.val; omega

theorem flushed1_5_eq (c : Dev nD) (t : Fin cfg1.N) (hf : (cfg1.win 5).flush t = true) :
    (Frm.dat1 (F := Ideal) V c).flushed 5 t = ((cfg1.win 5).blk t).view.read (Elt Ideal) (Frm.acc1_5 (F := Ideal) V c 9 nine_lt) := by
  show (cfg1.win 5).cut (grid1.coords t) ((Frm.dat1 (F := Ideal) V c).after 5 t) = _
  rw [Frm.after1_5]
  obtain ⟨_, _, _, _, _, _, _, _, _, _, e50, e51⟩ := idx_facts1 t
  have ht : t.val = 9 := by
    have h9 := (flush1_5 t).mp hf
    have hlt : t.val < 10 := lt_of_lt_of_eq t.isLt (show cfg1.N = 10 from N_1)
    omega
  funext y
  obtain ⟨z, q, rfl⟩ : ∃ (z : Fin 1) (q : Fin 128), y = ix2 z q := ⟨y 0, y 1, eq_ix2 y⟩
  show Frm.acc1_5 (F := Ideal) V c t.val t.isLt (ix2 z q)
    = Frm.acc1_5 (F := Ideal) V c 9 nine_lt (((cfg1.win 5).blk t).view.emb (ix2 z q))
  rw [acc5_congr V c t.val 9 ht t.isLt nine_lt]
  refine congrArg (Frm.acc1_5 (F := Ideal) V c 9 nine_lt) ?_
  funext a; apply Fin.ext
  match a with
  | ⟨0, _⟩ => show z.val = win1_5.index t (0 : Fin 2) * 1 + 1 * z.val; omega
  | ⟨1, _⟩ => show q.val = win1_5.index t (1 : Fin 2) * 128 + 1 * q.val; omega

/-- An index of a row output is in point `t`'s block iff each coordinate is in the block's range on its axis. -/
theorem mem_blk1_4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v34_1).slice (win1_4.rect t)).set ↔ _
  rw [View.set_slice_whole, Rect.mem_set_unit]
  exact Iff.rfl
theorem mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v34_2).slice (win1_5.rect t)).set ↔ _
  rw [View.set_slice_whole, Rect.mem_set_unit]
  exact Iff.rfl

/-- The last point's block is the whole row, so it covers every index. -/
theorem cover1_4 (i : S1x128.Idx) :
    ∃ t : Fin cfg1.N, (cfg1.win 4).flush t = true ∧ i ∈ ((cfg1.win 4).blk t).view.set := by
  have hi0 : (i 0).val < 1 := (i 0).isLt
  have hi1 : (i 1).val < 128 := (i 1).isLt
  obtain ⟨_, _, _, _, _, _, _, _, e40, e41, _⟩ := idx_facts1 ⟨9, nine_lt⟩
  refine ⟨⟨9, nine_lt⟩, (flush1_4 _).mpr rfl, ?_⟩
  rw [mem_blk1_4]
  intro a
  match a with
  | ⟨0, _⟩ => show win1_4.index ⟨9, nine_lt⟩ (0 : Fin 2) * 1 ≤ (i 0).val ∧ (i 0).val < win1_4.index ⟨9, nine_lt⟩ (0 : Fin 2) * 1 + 1; omega
  | ⟨1, _⟩ => show win1_4.index ⟨9, nine_lt⟩ (1 : Fin 2) * 128 ≤ (i 1).val ∧ (i 1).val < win1_4.index ⟨9, nine_lt⟩ (1 : Fin 2) * 128 + 128; omega
theorem cover1_5 (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  obtain ⟨_, _, _, _, _, _, _, _, _, _, e50, e51⟩ := idx_facts1 ⟨9, nine_lt⟩
  refine ⟨⟨9, nine_lt⟩, (flush1_5 _).mpr rfl, ?_⟩
  rw [mem_blk1_5]
  intro a
  match a with
  | ⟨0, _⟩ => show win1_5.index ⟨9, nine_lt⟩ (0 : Fin 2) * 1 ≤ (i 0).val ∧ (i 0).val < win1_5.index ⟨9, nine_lt⟩ (0 : Fin 2) * 1 + 1; omega
  | ⟨1, _⟩ => show win1_5.index ⟨9, nine_lt⟩ (1 : Fin 2) * 128 ≤ (i 1).val ∧ (i 1).val < win1_5.index ⟨9, nine_lt⟩ (1 : Fin 2) * 128 + 128; omega

/-- The row outputs after the ten points: the accumulators' values after the last point. -/
theorem arr1_4_eq (c : Dev nD) : (Frm.dat1 (F := Ideal) V c).arrAt 4 cfg1.N = Frm.acc1_4 (F := Ideal) V c 9 nine_lt :=
  (Frm.dat1 (F := Ideal) V c).arrAt_eq_of_cover 4 (Frm.acc1_4 (F := Ideal) V c 9 nine_lt) (fun t hf => flushed1_4_eq V c t hf) cover1_4
theorem arr1_5_eq (c : Dev nD) : (Frm.dat1 (F := Ideal) V c).arrAt 5 cfg1.N = Frm.acc1_5 (F := Ideal) V c 9 nine_lt :=
  (Frm.dat1 (F := Ideal) V c).arrAt_eq_of_cover 5 (Frm.acc1_5 (F := Ideal) V c 9 nine_lt) (fun t hf => flushed1_5_eq V c t hf) cover1_5

/-- THE SECOND OUTPUT after the ten points: per column, the sum of `s` over all 50000 rows. -/
theorem final1_4 (c : Dev nD) (j : Fin 128) :
    @Eq EReal ((Frm.dat1 (F := Ideal) V c).arrAt 4 cfg1.N (ix2 (0 : Fin 1) j)) (∑ n : Fin 50000, sArr V c (ix2 n j)) := by
  rw [arr1_4_eq V c, acc4_sum V c j 9 nine_lt]
  exact Cert.LibBlockedSum.sum_lt_all 5000 (9 + 1) (by omega) _

/-- THE THIRD OUTPUT after the ten points: per column, the sum of `s · s` over all 50000 rows. -/
theorem final1_5 (c : Dev nD) (j : Fin 128) :
    @Eq EReal ((Frm.dat1 (F := Ideal) V c).arrAt 5 cfg1.N (ix2 (0 : Fin 1) j))
      (∑ n : Fin 50000, sArr V c (ix2 n j) * sArr V c (ix2 n j)) := by
  rw [arr1_5_eq V c, acc5_sum V c j 9 nine_lt]
  exact Cert.LibBlockedSum.sum_lt_all 5000 (9 + 1) (by omega) _

end Cert.KernelIdeal.Val

end
-- ==== Proof.Spec.lean ====
/-
  The mathematics of the certificate, with no program in sight.

  Both programs first form one array `s : [50000, 128]` (a linear layer plus two neighbourhood sums), then
  normalise each column `j` over the 50000 rows and clip at zero:

      out n j = max (((s n j - μ j) · rsqrt (v j + ε)) · γ j + β j) 0,      μ j = (Σ_n s n j) / 50000.

  They differ in the variance `v j`: one takes the mean of the squared deviations, `(Σ_n (s n j - μ j)²) / 50000`,
  the other the mean of the squares less the squared mean, `(Σ_n (s n j)²) / 50000 - μ j · μ j`. On the extended
  reals the two agree when every `s n j` is a real number (`varK_eq_varR`): both are then coercions of reals,
  where `Σ (r - μ)² = Σ r² - 2 μ Σ r + 50000 μ²` and `Σ r = 50000 μ`. (At an infinite entry they need not:
  the subtraction `⊤ - ⊤` is `⊥`.) The divisor is the float `50000.0`, which denotes the real 50000, the
  number of rows: the identity needs exactly that.
-/
import Idealize.ShloMosaic.PureOps.Ideal
import Idealize.ShloMosaic.PureOps.Ideal.Laws

noncomputable section

namespace Cert.NormSpec

open Idealize.ShloMosaic

/-- The divisor both programs spell, `50000.0`. -/
def D : EReal := Ideal.ofBits .f32 0x47435000#32
/-- The float added under the reciprocal square root (the same pattern in both programs; never evaluated). -/
def eps : EReal := Ideal.ofBits .f32 0x3727C5AC#32

/-- `50000.0` denotes the real 50000. -/
theorem D_eq : D = ((50000 : ℝ) : EReal) := by
  unfold D; simp [Ideal.ofBits, Ideal.ieee, -EReal.coe_mul]; norm_num

/-- The column mean. -/
def mu (s : Fin 50000 → Fin 128 → EReal) (j : Fin 128) : EReal := Ideal.div (∑ n, s n j) D
/-- The variance as the mean of the squared deviations. -/
def varR (s : Fin 50000 → Fin 128 → EReal) (j : Fin 128) : EReal :=
  Ideal.div (∑ n, (s n j - mu s j) * (s n j - mu s j)) D
/-- The variance as the mean of the squares less the squared mean. -/
def varK (s : Fin 50000 → Fin 128 → EReal) (j : Fin 128) : EReal :=
  Ideal.div (∑ n, s n j * s n j) D - mu s j * mu s j

/-- The normalised, scaled, shifted and clipped output, from a given variance. -/
def outWith (v : Fin 128 → EReal) (s : Fin 50000 → Fin 128 → EReal) (γ β : Fin 128 → EReal) (n : Fin 50000) (j : Fin 128) : EReal :=
  max ((((s n j - mu s j) * Ideal.rsqrt (v j + eps)) * γ j) + β j) 0

/-- A finite sum of coercions of reals is the coercion of the sum. -/
theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The variance identity over the reals, for `N` summands and the divisor `N`. -/
theorem var_real {N : ℕ} (r : Fin N → ℝ) (d : ℝ) (hd : d = N) (h0 : d ≠ 0) :
    (∑ n, (r n - (∑ k, r k) * (1 / d)) * (r n - (∑ k, r k) * (1 / d))) * (1 / d)
      = (∑ n, r n * r n) * (1 / d) - ((∑ k, r k) * (1 / d)) * ((∑ k, r k) * (1 / d)) := by
  have hexp : ∀ n, (r n - (∑ k, r k) * (1 / d)) * (r n - (∑ k, r k) * (1 / d))
      = r n * r n - (2 * ((∑ k, r k) * (1 / d))) * r n + ((∑ k, r k) * (1 / d)) * ((∑ k, r k) * (1 / d)) := fun n => by ring
  simp only [hexp, Finset.sum_add_distrib, Finset.sum_sub_distrib, ← Finset.mul_sum, Finset.sum_const, Finset.card_univ,
    Fintype.card_fin, nsmul_eq_mul]
  rw [← hd]
  field_simp
  ring

/-- The two variances agree on a column of real numbers. -/
theorem varK_eq_varR (s : Fin 50000 → Fin 128 → EReal) (j : Fin 128) (hfin : ∀ n, ∃ r : ℝ, s n j = (r : EReal)) :
    varK s j = varR s j := by
  choose r hr using hfin
  have h0 : (50000 : ℝ) ≠ 0 := by norm_num
  unfold varK varR mu
  simp only [hr, D_eq, Ideal.div_coe h0, ← EReal.coe_mul, coe_sum, ← EReal.coe_sub]
  exact congrArg _ (var_real r 50000 (by norm_num) h0).symm

/-- So the outputs agree. -/
theorem outWith_varK (s : Fin 50000 → Fin 128 → EReal) (γ β : Fin 128 → EReal)
    (hfin : ∀ n j, ∃ r : ℝ, s n j = (r : EReal)) (n : Fin 50000) (j : Fin 128) :
    outWith (varK s) s γ β n j = outWith (varR s) s γ β n j := by
  unfold outWith; rw [varK_eq_varR s j (fun n => hfin n j)]

end Cert.NormSpec

end
-- ==== Proof.KHost2.lean ====
/- The third stretch of host operations, read at an index, over the extended reals.

   The stretch takes the two accumulated rows (column sums and column sums of squares, each of shape [1,128]),
   flattens them to [128], divides each by the constant 50000.0, forms mean · mean, subtracts it from the mean of
   squares, adds the constant ε, takes the reciprocal square root, and finally reshapes the mean, that reciprocal root,
   and the two parameter rows γ and β back to [1,128]. Every operation is pointwise and every reshape is between [1,128]
   and [128], so column j of each result is the same expression in column j of the operands; a splat of a constant is
   that constant at every index. The two constants are kept as the bit patterns the program spells, never evaluated. -/
import proofs.«136928_j37177236914931_1_alg».proof.Proof.Gen.KernelIdeal.Launch
import proofs.«136928_j37177236914931_1_alg».proof.Proof.Gen.KernelIdeal.Regions
import proofs.«136928_j37177236914931_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.TcCoe
open Idealize.SL Idealize.SL.Sem
open Idealize.ShloMosaic.ValueIdx

/-- Column `j` of the mean row: the column sum divided by the row count. -/
theorem h2_mean (W : Valuation τ sig (Elt Ideal)) (j : Fin 128) :
    StableHlo.after hostOps2 W (Proc.devRef .tc main_v46) (ix2 (0 : Fin 1) j)
      = Ideal.div (W (Proc.devRef .tc main_v34_1) (ix2 (0 : Fin 1) j)) Cert.NormSpec.D := by
  after_results_simp
  refine (shapeCast_a_1a_apply (a := 128) _ _ 0 j).trans ?_
  refine congrArg₂ Ideal.div (shapeCast_1a_a_apply (a := 128) _ _ j) ?_
  rfl

/-- Column `j` of the reciprocal standard deviation: the reciprocal square root of the mean of squares less the squared
    mean, plus ε. -/
theorem h2_invstd (W : Valuation τ sig (Elt Ideal)) (j : Fin 128) :
    StableHlo.after hostOps2 W (Proc.devRef .tc main_v47) (ix2 (0 : Fin 1) j)
      = Ideal.rsqrt ((Ideal.div (W (Proc.devRef .tc main_v34_2) (ix2 (0 : Fin 1) j)) Cert.NormSpec.D
          - Ideal.div (W (Proc.devRef .tc main_v34_1) (ix2 (0 : Fin 1) j)) Cert.NormSpec.D
            * Ideal.div (W (Proc.devRef .tc main_v34_1) (ix2 (0 : Fin 1) j)) Cert.NormSpec.D) + Cert.NormSpec.eps) := by
  after_results_simp
  refine (shapeCast_a_1a_apply (a := 128) _ _ 0 j).trans ?_
  have h1 := shapeCast_1a_a_apply (a := 128) (W (Proc.devRef .tc main_v34_1)) shapeCasts_S1x128_S128 j
  have h2 := shapeCast_1a_a_apply (a := 128) (W (Proc.devRef .tc main_v34_2)) shapeCasts_S1x128_S128 j
  refine congrArg Ideal.rsqrt (congrArg₂ (· + ·) (congrArg₂ (· - ·) (congrArg₂ Ideal.div h2 ?_)
    (congrArg₂ (· * ·) (congrArg₂ Ideal.div h1 ?_) (congrArg₂ Ideal.div h1 ?_))) ?_) <;> rfl

/-- The scale row is the parameter γ, reshaped. -/
theorem h2_gamma (W : Valuation τ sig (Elt Ideal)) (j : Fin 128) :
    StableHlo.after hostOps2 W (Proc.devRef .tc main_v48) (ix2 (0 : Fin 1) j) = W (Proc.devRef .tc main_arg6) (ix1 j) := by
  after_results_simp
  exact shapeCast_a_1a_apply (a := 128) _ _ 0 j

/-- The shift row is the parameter β, reshaped. -/
theorem h2_beta (W : Valuation τ sig (Elt Ideal)) (j : Fin 128) :
    StableHlo.after hostOps2 W (Proc.devRef .tc main_v49) (ix2 (0 : Fin 1) j) = W (Proc.devRef .tc main_arg7) (ix1 j) := by
  after_results_simp
  exact shapeCast_a_1a_apply (a := 128) _ _ 0 j

/-- The stretch does not write the first result of the statistics region: its contents pass through. -/
theorem h2_keep (W : Valuation τ sig (Elt Ideal)) :
    StableHlo.after hostOps2 W (Proc.devRef .tc main_v34_0) = W (Proc.devRef .tc main_v34_0) :=
  StableHlo.after_of_writes_sub hostOps2 _ hostOps2_writes (by decide)

end Cert.KernelIdeal.Val

end
-- ==== Proof.KBridge1.lean ====
/-
  The fused linear layer against the three separate ones.

  The kernel stacks the three [128, 128] weight matrices on top of each other, transposes the stack to a [128, 384]
  matrix and multiplies once; the reference multiplies by each transposed matrix separately. Column `128·c + j` of
  the transposed stack is row `j` of matrix `c`, so the `c`-th block of 128 columns of the fused product is the
  reference's product with matrix `c`: both are, at (n, j), the sum over k of `x (n, k) · W_c (j, k)`.
-/
import proofs.«136928_j37177236914931_1_alg».proof.Proof.Gen.KernelIdeal
import proofs.«136928_j37177236914931_1_alg».proof.Proof.Gen.ReferenceIdeal.Read
import proofs.«136928_j37177236914931_1_alg».proof.Proof.KDefs
import proofs.«136928_j37177236914931_1_alg».proof.Proof.LibDotSums
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Facts₀ Idealize.ShloMosaic Idealize.ShloMosaic.ValueIdx

/-- The stack of the three weight matrices, [384, 128]. -/
def wcat (a3 a4 a5 : S128x128.Idx → EReal) : S384x128.Idx → EReal :=
  concatenate S384x128 0 [⟨S128x128, a3⟩, ⟨S128x128, a4⟩, ⟨S128x128, a5⟩] concatenates_S128x128_S128x128_S128x128_S384x128_d0

/-- Its transpose, [128, 384]: what the first region multiplies by. -/
def wcatT (a3 a4 a5 : S128x128.Idx → EReal) : S128x384.Idx → EReal :=
  transpose S128x384 [1, 0] (wcat a3 a4 a5) transposes_S384x128_S128x384_1_0

/-- Row `128·c + j` of the stack is row `j` of matrix `c`. -/
theorem wcat_apply0 (a3 a4 a5 : S128x128.Idx → EReal) (j k : Fin 128) (q : Fin 384) (hq : q.val = j.val) :
    wcat a3 a4 a5 (ix2 q k) = a3 (ix2 j k) :=
  concatenate_apply_piece (0 : Fin S384x128.rank) [⟨S128x128, a3⟩, ⟨S128x128, a4⟩, ⟨S128x128, a5⟩] concatenates_S128x128_S128x128_S128x128_S384x128_d0 (ix2 q k) 0 (by show 0 < 3; omega)
    S128x128 a3 rfl rfl 0 rfl (ix2 j k) (fun b hb => by
      match b with
      | ⟨0, _⟩ => exact absurd rfl hb
      | ⟨1, _⟩ => rfl) (by show 0 + j.val = q.val; omega)
theorem wcat_apply1 (a3 a4 a5 : S128x128.Idx → EReal) (j k : Fin 128) (q : Fin 384) (hq : q.val = 128 + j.val) :
    wcat a3 a4 a5 (ix2 q k) = a4 (ix2 j k) :=
  concatenate_apply_piece (0 : Fin S384x128.rank) [⟨S128x128, a3⟩, ⟨S128x128, a4⟩, ⟨S128x128, a5⟩] concatenates_S128x128_S128x128_S128x128_S384x128_d0 (ix2 q k) 1 (by show 1 < 3; omega)
    S128x128 a4 rfl rfl 128 rfl (ix2 j k) (fun b hb => by
      match b with
      | ⟨0, _⟩ => exact absurd rfl hb
      | ⟨1, _⟩ => rfl) (by show 128 + j.val = q.val; omega)
theorem wcat_apply2 (a3 a4 a5 : S128x128.Idx → EReal) (j k : Fin 128) (q : Fin 384) (hq : q.val = 256 + j.val) :
    wcat a3 a4 a5 (ix2 q k) = a5 (ix2 j k) :=
  concatenate_apply_piece (0 : Fin S384x128.rank) [⟨S128x128, a3⟩, ⟨S128x128, a4⟩, ⟨S128x128, a5⟩] concatenates_S128x128_S128x128_S128x128_S384x128_d0 (ix2 q k) 2 (by show 2 < 3; omega)
    S128x128 a5 rfl rfl 256 rfl (ix2 j k) (fun b hb => by
      match b with
      | ⟨0, _⟩ => exact absurd rfl hb
      | ⟨1, _⟩ => rfl) (by show 256 + j.val = q.val; omega)

/-- The transposed stack at (k, q) is the stack at (q, k). -/
theorem wcatT_apply (a3 a4 a5 : S128x128.Idx → EReal) (k : Fin 128) (q : Fin 384) :
    wcatT a3 a4 a5 (ix2 k q) = wcat a3 a4 a5 (ix2 q k) :=
  transpose_ix2_apply (wcat a3 a4 a5) transposes_S384x128_S128x384_1_0 k q

/-- The reference's linear layer `x · Wᵀ`, as it spells it. -/
def lin (a0 : S50000x128.Idx → EReal) (w : S128x128.Idx → EReal) : S50000x128.Idx → EReal :=
  Cert.ReferenceIdeal.Read.val_main_v1 (F := Ideal) a0 w

/-- At (n, j) it is the sum over k of `x (n, k) · W (j, k)`. -/
theorem lin_apply (a0 : S50000x128.Idx → EReal) (w : S128x128.Idx → EReal) (n : Fin 50000) (j : Fin 128) :
    lin a0 w (ix2 n j) = ∑ k : Fin 128, a0 (ix2 n k) * w (ix2 j k) := by
  unfold lin Cert.ReferenceIdeal.Read.val_main_v1 Cert.ReferenceIdeal.Read.val_main_v0
  refine (Cert.DotSums.dotGeneral_ix2 Cert.ReferenceIdeal.dot_S50000x128_S128x128_S50000x128_1_0_0_1_n_n none .single
    rfl rfl rfl rfl rfl rfl rfl rfl a0 _ n j).trans ?_
  refine Finset.sum_congr rfl fun k _ => congrArg (a0 (ix2 n k) * ·) ?_
  exact transpose_ix2_apply w _ k j

/-- The `c`-th block of 128 columns of the fused product is the product with matrix `c`. -/
theorem slice0_eq (a0 : S50000x128.Idx → EReal) (a3 a4 a5 : S128x128.Idx → EReal) :
    extractStridedSlice S50000x128 ![0, 0] (GXW a0 (wcatT a3 a4 a5)) slices_S50000x384_S50000x128_0_0 = lin a0 a3 := by
  funext i
  obtain ⟨n, j, rfl⟩ : ∃ (n : Fin 50000) (j : Fin 128), i = ix2 n j := ⟨i 0, i 1, eq_ix2 i⟩
  rw [slice2_axis1_apply 0 _ slices_S50000x384_S50000x128_0_0 n j ⟨j.val, by have := j.isLt; omega⟩ (by simp), GXW_apply, lin_apply]
  refine Finset.sum_congr rfl fun k _ => congrArg (a0 (ix2 n k) * ·) ?_
  rw [wcatT_apply]; exact wcat_apply0 a3 a4 a5 j k _ rfl
theorem slice1_eq (a0 : S50000x128.Idx → EReal) (a3 a4 a5 : S128x128.Idx → EReal) :
    extractStridedSlice S50000x128 ![0, 128] (GXW a0 (wcatT a3 a4 a5)) slices_S50000x384_S50000x128_0_128 = lin a0 a4 := by
  funext i
  obtain ⟨n, j, rfl⟩ : ∃ (n : Fin 50000) (j : Fin 128), i = ix2 n j := ⟨i 0, i 1, eq_ix2 i⟩
  rw [slice2_axis1_apply 128 _ slices_S50000x384_S50000x128_0_128 n j ⟨128 + j.val, by have := j.isLt; omega⟩ rfl, GXW_apply, lin_apply]
  refine Finset.sum_congr rfl fun k _ => congrArg (a0 (ix2 n k) * ·) ?_
  rw [wcatT_apply]; exact wcat_apply1 a3 a4 a5 j k _ rfl
theorem slice2_eq (a0 : S50000x128.Idx → EReal) (a3 a4 a5 : S128x128.Idx → EReal) :
    extractStridedSlice S50000x128 ![0, 256] (GXW a0 (wcatT a3 a4 a5)) slices_S50000x384_S50000x128_0_256 = lin a0 a5 := by
  funext i
  obtain ⟨n, j, rfl⟩ : ∃ (n : Fin 50000) (j : Fin 128), i = ix2 n j := ⟨i 0, i 1, eq_ix2 i⟩
  rw [slice2_axis1_apply 256 _ slices_S50000x384_S50000x128_0_256 n j ⟨256 + j.val, by have := j.isLt; omega⟩ rfl, GXW_apply, lin_apply]
  refine Finset.sum_congr rfl fun k _ => congrArg (a0 (ix2 n k) * ·) ?_
  rw [wcatT_apply]; exact wcat_apply2 a3 a4 a5 j k _ rfl

end Cert.KernelIdeal.Val

end
-- ==== Proof.LibGatherRows.lean ====
/-
  Gathering rows of a matrix, read at an index; and gathering rows commutes with a right matrix product.

  Take an operand of shape [N, C], start indices of shape [E, 1] and a result of shape [E, C], with dimension numbers
  that say: the result's axis 1 is the offset axis; the operand's axis 0 is collapsed and is the axis the start index
  names; the index vector lies along axis 1 of the start indices; the slice is one row, sizes [1, C]. The result's
  entry (e, k) is then the operand's entry (r, k), where the row `r` is the start index `idx (e, 0)` read as a signed
  integer and clamped into [0, N - 1]: on the collapsed axis the operand index is the clamped start alone, on the other
  axis it is the result's offset coordinate alone.

  Consequence: for `x : [N, K]` and `y : [K, B]`, the rows `idx` names of the product `x · y` are the product of those
  rows of `x` with `y`. Both sides at (e, q) are `∑ k < K, x (r, k) * y (k, q)` for the same row `r`.
-/
import proofs.«136928_j37177236914931_1_alg».proof.Proof.LibDotSums

open scoped BigOperators

namespace Cert.GatherRows

open Idealize.ShloMosaic Idealize.ShloMosaic.ValueIdx

/-- The dimension numbers of a row gather, for an operand [N, C], start indices [E, 1] and a result [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the `e`-th start index names: `idx (e, 0)` read signed and clamped into [0, N - 1]. -/
def rowOf {N E w : Nat} (hN : 0 < N) (idx : IVec ⟨2, ![E, 1]⟩ w) (e : Fin E) : Fin N :=
  ⟨min (idx (ix2 e (0 : Fin 1))).toInt.toNat (N - 1), by omega⟩

/-- THE ROW GATHER READ AT `(e, k)`: the operand at row `rowOf idx e`, column `k`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N E C wf) x idx (ix2 e k) = x (ix2 (rowOf hN idx e) k) := by
  unfold Host.gather
  congr 1
  funext a
  refine Fin.ext ?_
  match a with
  | ⟨0, _⟩ =>
    show (rowDims N E C wf).start (ix2 e k) idx 0 + (rowDims N E C wf).batchCoord (ix2 e k) 0
      + (rowDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e k) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e k) idx 1 + (rowDims N E C wf).batchCoord (ix2 e k) 1
      + (rowDims N E C wf).offCoord (ix2 e k) 1 = k.val
    have hst : (rowDims N E C wf).start (ix2 e k) idx 1 = 0 := by
      unfold GatherDims.start
      exact dif_neg (show ¬ (1 : Fin 2) ∈ ([0] : List (Fin 2)) by decide)
    have hoff : (rowDims N E C wf).offCoord (ix2 e k) 1 = k.val := by
      unfold GatherDims.offCoord
      exact (dif_pos (show (1 : Fin 2) ∈ ([1] : List (Fin 2)) by decide)).trans rfl
    rw [GatherDims.batchCoord_eq_zero _ _ _ List.not_mem_nil, hst, hoff]
    omega

/-- GATHERING ROWS COMMUTES WITH A RIGHT MATRIX PRODUCT, at the exact values: the rows `idx` names of `x · y` are the
    product of those rows of `x` with `y`. The two records' dimension numbers ("no batch axes, contract axis 1 of the
    left against axis 0 of the right") are taken as hypotheses, each closed by `rfl` on a printed record. -/
theorem gather_dot {N E K B w : Nat} {φ₁ φ₂ : FTy} (hN : 0 < N)
    (d₁ : DotDims ⟨2, ![N, K]⟩ ⟨2, ![K, B]⟩ ⟨2, ![N, B]⟩) (d₂ : DotDims ⟨2, ![E, K]⟩ ⟨2, ![K, B]⟩ ⟨2, ![E, B]⟩)
    (prec : Option ContractPrecision) (sched : HostSchedule)
    (hlb₁ : d₁.lhsBatch = []) (hln₁ : d₁.lhsNonContracting = [0]) (hlc₁ : d₁.lhsContracting = [1])
    (hrb₁ : d₁.rhsBatch = []) (hrn₁ : d₁.rhsNonContracting = [1]) (hrc₁ : d₁.rhsContracting = [0])
    (hr₁ : d₁.contr.rank = 1) (hs₁ : d₁.contr.size ⟨0, by omega⟩ = K)
    (hlb₂ : d₂.lhsBatch = []) (hln₂ : d₂.lhsNonContracting = [0]) (hlc₂ : d₂.lhsContracting = [1])
    (hrb₂ : d₂.rhsBatch = []) (hrn₂ : d₂.rhsNonContracting = [1]) (hrc₂ : d₂.rhsContracting = [0])
    (hr₂ : d₂.contr.rank = 1) (hs₂ : d₂.contr.size ⟨0, by omega⟩ = K)
    (wfB : GatherDims.WF ⟨2, ![N, B]⟩ ⟨2, ![E, 1]⟩ ⟨2, ![E, B]⟩ [1] [0] [] [0] [] 1 ![1, B])
    (wfK : GatherDims.WF ⟨2, ![N, K]⟩ ⟨2, ![E, 1]⟩ ⟨2, ![E, K]⟩ [1] [0] [] [0] [] 1 ![1, K])
    (x : FVec Ideal ⟨2, ![N, K]⟩ φ₁) (y : FVec Ideal ⟨2, ![K, B]⟩ φ₂) (idx : IVec ⟨2, ![E, 1]⟩ w) :
    Host.gather (rowDims N E B wfB) (FloatOps.dotGeneral d₁ prec sched x y) idx
      = FloatOps.dotGeneral d₂ prec sched (Host.gather (rowDims N E K wfK) x idx) y := by
  funext i
  obtain ⟨e, q, rfl⟩ : ∃ (e : Fin E) (q : Fin B), i = ix2 e q := ⟨i 0, i 1, eq_ix2 i⟩
  rw [gather_rows_apply hN,
    Cert.DotSums.dotGeneral_ix2 d₁ prec sched hlb₁ hln₁ hlc₁ hrb₁ hrn₁ hrc₁ hr₁ hs₁,
    Cert.DotSums.dotGeneral_ix2 d₂ prec sched hlb₂ hln₂ hlc₂ hrb₂ hrn₂ hrc₂ hr₂ hs₂]
  refine Finset.sum_congr rfl fun k _ => ?_
  rw [gather_rows_apply hN]

end Cert.GatherRows
-- ==== Proof.KBridge2.lean ====
/-
  The second stretch of host operations, against the reference.

  After the first region the product array holds `x · [W1; W2l; W2g]ᵀ`. The host then cuts it into its three blocks of
  128 columns, gathers rows of the second and third block at the (wrapped, clamped) column indices of the two edge
  lists and adds each gathered row into the row its edge names. The reference gathers rows of `x` first and multiplies
  afterwards. Gathering rows commutes with a product on the right — row `e` of the gathered product and row `e` of the
  product of the gathered rows are both `∑ k, x (row e, k) · W (j, k)` — so the updates the two programs scatter are the
  same array, the indices and the zero array they scatter into are computed by the same operations, and the three
  arrays the second region adds up are the reference's `x·W1ᵀ`, its first neighbourhood sum and its second.
-/
import proofs.«136928_j37177236914931_1_alg».proof.Proof.Gen.KernelIdeal.Launch
import proofs.«136928_j37177236914931_1_alg».proof.Proof.Gen.ReferenceIdeal.Read
import proofs.«136928_j37177236914931_1_alg».proof.Proof.KBridge1
import proofs.«136928_j37177236914931_1_alg».proof.Proof.LibGatherRows
import Idealize.ShloMosaic.Lib.StableHlo.Run

noncomputable section

namespace Cert.KernelIdeal.Val

open Cert.KernelIdeal Cert.KernelIdeal.Gen Cert.KernelIdeal.Facts₀
open Idealize.ShloMosaic Idealize.ShloMosaic.TcCoe Idealize.SL.Sem Idealize.ShloMosaic.StableHlo Idealize.ShloMosaic.ValueIdx

/-- The first stretch leaves the transposed stack of the weight matrices where the first region reads it. -/
theorem h0_w (W : Valuation τ sig (Elt Ideal)) :
    StableHlo.after hostOps0 W (Proc.devRef .tc main_v1)
      = wcatT (W (Proc.devRef .tc main_arg3)) (W (Proc.devRef .tc main_arg4)) (W (Proc.devRef .tc main_arg5)) := by
  after_results
  rfl

/-- Gathering rows of `x · Wᵀ` is multiplying the gathered rows of `x` by `Wᵀ`. -/
theorem gather_lin (a0 : S50000x128.Idx → EReal) (w : S128x128.Idx → EReal) (idx : IVec S1600000x1 32) :
    Host.gather gather_S50000x128_S1600000x1_S1600000x128_1_0_n_n_0_1_1128 (lin a0 w) idx
      = (Host.dotGeneral (F := Ideal) (φ₁ := .f32) (φ₂ := .f32) Cert.ReferenceIdeal.dot_S1600000x128_S128x128_S1600000x128_1_0_0_1_n_n none
          (Host.gather Cert.ReferenceIdeal.gather_S50000x128_S1600000x1_S1600000x128_1_0_n_n_0_1_1128 a0 idx)
          (Cert.ReferenceIdeal.Read.val_main_v0 (F := Ideal) w) : S1600000x128.Idx → EReal) :=
  Cert.GatherRows.gather_dot (N := 50000) (E := 1600000) (K := 128) (B := 128) (by decide)
    Cert.ReferenceIdeal.dot_S50000x128_S128x128_S50000x128_1_0_0_1_n_n
    Cert.ReferenceIdeal.dot_S1600000x128_S128x128_S1600000x128_1_0_0_1_n_n none .single
    rfl rfl rfl rfl rfl rfl rfl (by decide) rfl rfl rfl rfl rfl rfl rfl (by decide)
    Cert.KernelIdeal.Facts₀.gather_S50000x128_S1600000x1_S1600000x128_1_0_n_n_0_1_1128_wf
    Cert.ReferenceIdeal.Facts₀.gather_S50000x128_S1600000x1_S1600000x128_1_0_n_n_0_1_1128_wf a0 _ idx

/-- The second region's first operand is the reference's `x · W1ᵀ`. -/
theorem h1_v3 (W : Valuation τ sig (Elt Ideal)) (a0 : S50000x128.Idx → EReal) (a3 a4 a5 : S128x128.Idx → EReal)
    (hW : W (Proc.devRef .tc main_v2) = GXW a0 (wcatT a3 a4 a5)) :
    StableHlo.after hostOps1 W (Proc.devRef .tc main_v3) = lin a0 a3 := by
  after_results_simp
  rw [hW]
  exact slice0_eq a0 a3 a4 a5

/-- Its second operand is the reference's first neighbourhood sum. -/
theorem h1_v23 (W : Valuation τ sig (Elt Ideal)) (a0 : S50000x128.Idx → EReal) (a1 : IVec S2x1600000 32) (a3 a4 a5 : S128x128.Idx → EReal)
    (hW : W (Proc.devRef .tc main_v2) = GXW a0 (wcatT a3 a4 a5)) (h1 : W (Proc.devRef .tc main_arg1) = a1) :
    StableHlo.after hostOps1 W (Proc.devRef .tc main_v23) = Cert.ReferenceIdeal.Read.val_main_v17 (F := Ideal) a0 a1 a4 := by
  after_results_simp
  rw [hW, h1, slice1_eq]
  refine (congrArg (Host.scatterAdd _ _ _) (gather_lin a0 a4 _)).trans ?_
  rfl

/-- Its third operand is the reference's second neighbourhood sum. -/
theorem h1_v33 (W : Valuation τ sig (Elt Ideal)) (a0 : S50000x128.Idx → EReal) (a2 : IVec S2x1600000 32) (a3 a4 a5 : S128x128.Idx → EReal)
    (hW : W (Proc.devRef .tc main_v2) = GXW a0 (wcatT a3 a4 a5)) (h2 : W (Proc.devRef .tc main_arg2) = a2) :
    StableHlo.after hostOps1 W (Proc.devRef .tc main_v33) = Cert.ReferenceIdeal.Read.val_main_v34 (F := Ideal) a0 a2 a5 := by
  after_results_simp
  rw [hW, h2, slice2_eq]
  refine (congrArg (Host.scatterAdd _ _ _) (gather_lin a0 a5 _)).trans ?_
  rfl

/-- The reference's summed array is, entry by entry, the sum of those three. -/
theorem s_eq (a0 : S50000x128.Idx → EReal) (a1 a2 : IVec S2x1600000 32) (a3 a4 a5 : S128x128.Idx → EReal) (i : S50000x128.Idx) :
    (lin a0 a3 i + Cert.ReferenceIdeal.Read.val_main_v17 (F := Ideal) a0 a1 a4 i) + Cert.ReferenceIdeal.Read.val_main_v34 (F := Ideal) a0 a2 a5 i
      = Cert.ReferenceIdeal.Read.val_main_v35 (F := Ideal) a0 a1 a2 a3 a4 a5 i := rfl

end Cert.KernelIdeal.Val

end
-- ==== Proof.RefValue.lean ====
/-
  The reference program's result, entry by entry, as the specification's function.

  The reference first forms the array `s : [50000, 128]` (a linear layer plus two neighbourhood sums); everything after
  it is a column normalisation read at one entry: the column mean `μ j = (0 + Σ_n s n j) / 50000`, the mean of the
  squared deviations `v j = (0 + Σ_n (s n j - μ j)²) / 50000`, and
  `out n j = max (((s n j - μ j) · rsqrt (v j + ε)) · γ j + β j) 0`. The two initial values `0 +` are the float zero, the
  real 0; every other float literal is left as its word.

  Second part: every entry of `s` is a real number when the float arguments are. `s` is built from them by sums,
  products, finite sums, re-indexings (a transpose, a row gather) and the accumulation of a scatter into a zero array,
  and each of these keeps the coercions of reals.
-/
import proofs.«136928_j37177236914931_1_alg».proof.Proof.Gen.ReferenceIdeal.Read
import proofs.«136928_j37177236914931_1_alg».proof.Proof.Spec

noncomputable section

namespace Cert.ReferenceIdeal.RefValue

open Cert.ReferenceIdeal Cert.ReferenceIdeal.Gen Idealize.ShloMosaic Idealize.ShloMosaic.ValueIdx
open Cert.ReferenceIdeal.Read

/-- The array both normalisations are taken of, by row and column. -/
def sfun (x0 : (⟨S50000x128, .f32⟩ : BufTy).Contents (Elt Ideal)) (x1 x2 : (⟨S2x1600000, .i32⟩ : BufTy).Contents (Elt Ideal))
    (x3 x4 x5 : (⟨S128x128, .f32⟩ : BufTy).Contents (Elt Ideal)) : Fin 50000 → Fin 128 → EReal :=
  fun n j => Read.val_main_v35 (F := Ideal) x0 x1 x2 x3 x4 x5 (ix2 n j)

/-! ## The indices the broadcasts and the column sums read at -/

/-- A column sum's `k`-th summand for column `j` is the entry `(k, j)`. -/
theorem idx_v36 (j : Fin 128) (k : Fin 50000) : idx_main_v36 (ix1 j) k = ix2 k j :=
  funext fun a => Fin.ext (by match a with | ⟨0, _⟩ => rfl | ⟨1, _⟩ => rfl)
theorem idx_v43 (j : Fin 128) (k : Fin 50000) : idx_main_v43 (ix1 j) k = ix2 k j :=
  funext fun a => Fin.ext (by match a with | ⟨0, _⟩ => rfl | ⟨1, _⟩ => rfl)
/-- A vector laid along a one-row matrix and repeated down the rows is read, at `(n, j)`, at `j`. -/
theorem idx_v39 (n : Fin 50000) (j : Fin 128) : idx_main_v39 (idx_main_v40 (ix2 n j)) = ix1 j :=
  funext fun a => Fin.ext (by match a with | ⟨0, _⟩ => rfl)
theorem idx_v46 (n : Fin 50000) (j : Fin 128) : idx_main_v46 (idx_main_v47 (ix2 n j)) = ix1 j :=
  funext fun a => Fin.ext (by match a with | ⟨0, _⟩ => rfl)
theorem idx_v52 (n : Fin 50000) (j : Fin 128) : idx_main_v52 (idx_main_v53 (ix2 n j)) = ix1 j :=
  funext fun a => Fin.ext (by match a with | ⟨0, _⟩ => rfl)
theorem idx_v55 (n : Fin 50000) (j : Fin 128) : idx_main_v55 (idx_main_v56 (ix2 n j)) = ix1 j :=
  funext fun a => Fin.ext (by match a with | ⟨0, _⟩ => rfl)
theorem idx_v58 (n : Fin 50000) (j : Fin 128) : idx_main_v58 (idx_main_v59 (ix2 n j)) = ix1 j :=
  funext fun a => Fin.ext (by match a with | ⟨0, _⟩ => rfl)

section
variable (x0 : (⟨S50000x128, .f32⟩ : BufTy).Contents (Elt Ideal)) (x1 x2 : (⟨S2x1600000, .i32⟩ : BufTy).Contents (Elt Ideal))
  (x3 x4 x5 : (⟨S128x128, .f32⟩ : BufTy).Contents (Elt Ideal)) (x6 x7 : (⟨S128, .f32⟩ : BufTy).Contents (Elt Ideal))

/-! ## The normalisation -/

/-- The reference's column mean is the specification's. -/
theorem mean_eq (j : Fin 128) :
    val_main_v38 (F := Ideal) x0 x1 x2 x3 x4 x5 (ix1 j) = Cert.NormSpec.mu (sfun x0 x1 x2 x3 x4 x5) j := by
  rw [val_main_v38_apply, val_main_v36_apply, val_main_v37_apply, val_main_cst_5_apply, val_main_cst_4_apply]
  simp only [idx_v36, Ideal.hostDivf_def, Ideal.ofBits_def, Ideal.ofBits_zero_f32, zero_add]
  rfl

/-- The reference's column variance is the mean of the squared deviations. -/
theorem var_eq (j : Fin 128) :
    val_main_v45 (F := Ideal) x0 x1 x2 x3 x4 x5 (ix1 j) = Cert.NormSpec.varR (sfun x0 x1 x2 x3 x4 x5) j := by
  rw [val_main_v45_apply, val_main_v43_apply, val_main_v44_apply, val_main_cst_7_apply, val_main_cst_6_apply]
  simp only [idx_v43, val_main_v42_apply, val_main_v41_apply, val_main_v40_apply, val_main_v39_apply, idx_v39, mean_eq,
    Ideal.hostDivf_def, Ideal.mulf_def, Ideal.subf_def, Ideal.ofBits_def, Ideal.ofBits_zero_f32, zero_add]
  rfl

/-- THE REFERENCE AT `(n, j)`: the specification's output with the variance as the mean of the squared deviations. -/
theorem ref_out (n : Fin 50000) (j : Fin 128) :
    val_main_v61 (F := Ideal) x0 x1 x2 x3 x4 x5 x6 x7 (ix2 n j)
      = Cert.NormSpec.outWith (Cert.NormSpec.varR (sfun x0 x1 x2 x3 x4 x5)) (sfun x0 x1 x2 x3 x4 x5)
          (fun j => x6 (ix1 j)) (fun j => x7 (ix1 j)) n j := by
  rw [val_main_v61_apply, val_main_v60_apply, val_main_v57_apply, val_main_v54_apply, val_main_v48_apply,
    val_main_v47_apply, val_main_v46_apply, idx_v46, mean_eq,
    val_main_v53_apply, val_main_v52_apply, idx_v52, val_main_v51_apply, val_main_v50_apply, var_eq,
    val_main_v49_apply, val_main_cst_8_apply,
    val_main_v56_apply, val_main_v55_apply, idx_v55, val_main_v59_apply, val_main_v58_apply, idx_v58,
    val_main_call0_v0_apply, val_main_call0_cst_apply]
  simp only [Ideal.maximumf_def, Ideal.addf_def, Ideal.mulf_def, Ideal.subf_def, Ideal.hostUnary_rsqrt_def,
    Ideal.ofBits_def, Ideal.ofBits_zero_f32]
  rfl

end

/-! ## Every entry of `s` is a real number -/

/-- A sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩
/-- A product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩
/-- A finite sum of reals is a real. -/
theorem real_sum {ι : Type} (t : Finset ι) (f : ι → EReal) (h : ∀ i, ∃ r : ℝ, f i = (r : EReal)) :
    ∃ r : ℝ, ∑ i ∈ t, f i = (r : EReal) := by
  choose g hg using h
  exact ⟨∑ i ∈ t, g i, (Finset.sum_congr rfl fun i _ => hg i).trans (Cert.NormSpec.coe_sum t g)⟩

/-- A scatter that adds real updates into a real array leaves a real array: each entry is the old entry plus the
    finite sum of the updates landing on it. -/
theorem scatterAdd_real {s si su : Shape} {φ : FTy} {w : Nat} (d : ScatterDims s si su) (x : FVec Ideal s φ)
    (idx : IVec si w) (upd : FVec Ideal su φ) (hx : ∀ i, ∃ r : ℝ, x i = (r : EReal))
    (hu : ∀ j, ∃ r : ℝ, upd j = (r : EReal)) (i : s.Idx) :
    ∃ r : ℝ, Host.scatterAdd d x idx upd i = (r : EReal) := by
  simp only [Host.scatterAdd, Ideal.hostScatterAdd_def]
  unfold Ideal.hostScatterAdd
  exact real_add (hx i) (real_sum _ _ hu)

section
variable (x0 : (⟨S50000x128, .f32⟩ : BufTy).Contents (Elt Ideal)) (x1 x2 : (⟨S2x1600000, .i32⟩ : BufTy).Contents (Elt Ideal))
  (x3 x4 x5 : (⟨S128x128, .f32⟩ : BufTy).Contents (Elt Ideal))

/-- The linear layer `x · W1ᵀ` of real operands is real. -/
theorem v1_real (h0 : ∀ i, ∃ r : ℝ, x0 i = (r : EReal)) (h3 : ∀ i, ∃ r : ℝ, x3 i = (r : EReal)) (i : S50000x128.Idx) :
    ∃ r : ℝ, val_main_v1 (F := Ideal) x0 x3 i = (r : EReal) := by
  rw [val_main_v1_apply]
  exact real_sum _ _ fun k => real_mul (h0 _) (by rw [val_main_v0_apply]; exact h3 _)

/-- The gathered rows times `W2lᵀ`: a gathered row is a row of `x`. -/
theorem v14_real (h0 : ∀ i, ∃ r : ℝ, x0 i = (r : EReal)) (h4 : ∀ i, ∃ r : ℝ, x4 i = (r : EReal)) (i : S1600000x128.Idx) :
    ∃ r : ℝ, val_main_v14 (F := Ideal) x0 x1 x4 i = (r : EReal) := by
  rw [val_main_v14_apply]
  exact real_sum _ _ fun k => real_mul (h0 _) (by rw [val_main_v13_apply]; exact h4 _)

/-- The gathered rows times `W2gᵀ`. -/
theorem v31_real (h0 : ∀ i, ∃ r : ℝ, x0 i = (r : EReal)) (h5 : ∀ i, ∃ r : ℝ, x5 i = (r : EReal)) (i : S1600000x128.Idx) :
    ∃ r : ℝ, val_main_v31 (F := Ideal) x0 x2 x5 i = (r : EReal) := by
  rw [val_main_v31_apply]
  exact real_sum _ _ fun k => real_mul (h0 _) (by rw [val_main_v30_apply]; exact h5 _)

/-- The zero array the first neighbourhood sum accumulates into is the real 0. -/
theorem v15_real (i : S50000x128.Idx) : ∃ r : ℝ, val_main_v15 (F := Ideal) i = (r : EReal) :=
  ⟨0, by rw [val_main_v15_apply, val_main_cst_apply, Ideal.ofBits_def, Ideal.ofBits_zero_f32]; exact EReal.coe_zero.symm⟩
/-- So is the second's. -/
theorem v32_real (i : S50000x128.Idx) : ∃ r : ℝ, val_main_v32 (F := Ideal) i = (r : EReal) :=
  ⟨0, by rw [val_main_v32_apply, val_main_cst_3_apply, Ideal.ofBits_def, Ideal.ofBits_zero_f32]; exact EReal.coe_zero.symm⟩

/-- EVERY ENTRY OF `s` IS A REAL NUMBER when the four float arguments it is built from are. -/
theorem s_real (h0 : ∀ i, ∃ r : ℝ, x0 i = (r : EReal)) (h3 : ∀ i, ∃ r : ℝ, x3 i = (r : EReal))
    (h4 : ∀ i, ∃ r : ℝ, x4 i = (r : EReal)) (h5 : ∀ i, ∃ r : ℝ, x5 i = (r : EReal)) (n : Fin 50000) (j : Fin 128) :
    ∃ r : ℝ, sfun x0 x1 x2 x3 x4 x5 n j = (r : EReal) := by
  show ∃ r : ℝ, val_main_v35 (F := Ideal) x0 x1 x2 x3 x4 x5 (ix2 n j) = (r : EReal)
  rw [val_main_v35_apply, val_main_v18_apply, Ideal.addf_def, Ideal.addf_def]
  refine real_add (real_add (v1_real x0 x3 h0 h3 _) ?_) ?_
  · exact scatterAdd_real _ _ _ _ v15_real (v14_real x0 x1 x4 h0 h4) _
  · exact scatterAdd_real _ _ _ _ v32_real (v31_real x0 x2 x5 h0 h5) _

end

end Cert.ReferenceIdeal.RefValue

end
-- ==== Proof.KFinal.lean ====
/-
  The idealized kernel's result, entry by entry.

  Reading the run backwards from the result array: the last region writes, block by block, the normalised array of
  the summed array `s` and the four rows the third host stretch prepared — the column means `(Σ_n s n j) / 50000`, the
  reciprocal square roots of `(Σ_n (s n j)²) / 50000 − mean² + ε`, and the scale and shift vectors. The sums are what
  the second region's two accumulators hold after its last point, and `s` itself is what that region writes block by
  block: the entrywise sum of its three operands, which the second host stretch computed from the first region's
  product array and the edge lists — the reference's summed array. So the result at (n, j) is the specification's
  normalised output of the reference's `s`, with the variance in the form "mean of squares less squared mean".
-/
import proofs.«136928_j37177236914931_1_alg».proof.Proof.KernelIdeal.Run
import proofs.«136928_j37177236914931_1_alg».proof.Proof.KValue02
import proofs.«136928_j37177236914931_1_alg».proof.Proof.KValue1
import proofs.«136928_j37177236914931_1_alg».proof.Proof.KHost2
import proofs.«136928_j37177236914931_1_alg».proof.Proof.KBridge2
import proofs.«136928_j37177236914931_1_alg».proof.Proof.RefValue
import proofs.«136928_j37177236914931_1_alg».proof.Proof.Spec

noncomputable section

namespace Cert.KernelIdeal.Val

open Cert.KernelIdeal Cert.KernelIdeal.Gen Cert.KernelIdeal.Frm
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The reference's summed array of the launch contents, by row and column. -/
abbrev sOf : Fin 50000 → Fin 128 → EReal :=
  Cert.ReferenceIdeal.RefValue.sfun (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- A buffer the first stretch does not write holds its launch contents at the first region's entry. -/
theorem W1_keep (b : Ref sig .tc) (h : b ∉ hostOps0_W) : W1 m c (Proc.devRef .tc b) = m ((c : Thread nD τ).loc b) :=
  StableHlo.after_of_writes_sub hostOps0 _ hostOps0_writes h

/-- After the first region the product array holds the fused product of the launch contents. -/
theorem W2_v2 : W2 m c (Proc.devRef .tc main_v2)
    = GXW (m ((c : Thread nD τ).loc main_arg0)) (wcatT (m ((c : Thread nD τ).loc main_arg3)) (m ((c : Thread nD τ).loc main_arg4)) (m ((c : Thread nD τ).loc main_arg5))) := by
  refine (W2_arr m c 2).trans ((final0 (V1 m) c).trans ?_)
  show GXW (W1 m c (Proc.devRef .tc main_arg0)) (W1 m c (Proc.devRef .tc main_v1)) = _
  rw [W1_keep m c main_arg0 (by decide)]
  exact congrArg (GXW _) (h0_w (W0 m c))

/-- The edge lists are as launched when the second stretch reads them. -/
theorem W2_arg1 : W2 m c (Proc.devRef .tc main_arg1) = m ((c : Thread nD τ).loc main_arg1) :=
  (W2_of_ne m c main_arg1 (by decide)).trans (W1_keep m c main_arg1 (by decide))
theorem W2_arg2 : W2 m c (Proc.devRef .tc main_arg2) = m ((c : Thread nD τ).loc main_arg2) :=
  (W2_of_ne m c main_arg2 (by decide)).trans (W1_keep m c main_arg2 (by decide))

/-- The array the second region sums is the reference's summed array. -/
theorem sArr_eq (n : Fin 50000) (j : Fin 128) : sArr (V3 m) c (ix2 n j) = sOf m c n j := by
  unfold sArr
  rw [show V3 m c main_v3 = _ from h1_v3 (W2 m c) _ _ _ _ (W2_v2 m c),
    show V3 m c main_v23 = _ from h1_v23 (W2 m c) _ _ _ _ _ (W2_v2 m c) (W2_arg1 m c),
    show V3 m c main_v33 = _ from h1_v33 (W2 m c) _ _ _ _ _ (W2_v2 m c) (W2_arg2 m c)]
  exact s_eq _ _ _ _ _ _ (ix2 n j)

/-- After the second region: the summed array, its column sums and the column sums of its squares. -/
theorem W4_s : W4 m c (Proc.devRef .tc main_v34_0) = sArr (V3 m) c :=
  (W4_arr m c 3).trans (final1_3 (V3 m) c)
theorem W4_sum (j : Fin 128) : @Eq EReal (W4 m c (Proc.devRef .tc main_v34_1) (ix2 (0 : Fin 1) j)) (∑ n : Fin 50000, sOf m c n j) := by
  rw [W4_arr m c 4, final1_4 (V3 m) c j]
  exact Finset.sum_congr rfl fun n _ => sArr_eq m c n j
theorem W4_sumsq (j : Fin 128) : @Eq EReal (W4 m c (Proc.devRef .tc main_v34_2) (ix2 (0 : Fin 1) j)) (∑ n : Fin 50000, sOf m c n j * sOf m c n j) := by
  rw [W4_arr m c 5, final1_5 (V3 m) c j]
  exact Finset.sum_congr rfl fun n _ => by rw [sArr_eq m c n j]

/-- The scale and shift vectors are as launched when the third stretch reads them. -/
theorem W4_keep (b : Ref sig .tc) (h0 : b ∉ hostOps0_W) (h1 : b ∉ hostOps1_W)
    (hw0 : ∀ w, Pipeline.arrRef spec0 w ≠ b) (hw1 : ∀ w, Pipeline.arrRef spec1 w ≠ b) :
    W4 m c (Proc.devRef .tc b) = m ((c : Thread nD τ).loc b) :=
  (W4_of_ne m c b hw1).trans ((StableHlo.after_of_writes_sub hostOps1 _ hostOps1_writes h1).trans
    ((W2_of_ne m c b hw0).trans (W1_keep m c b h0)))

/-- THE RESULT: what the last region's write-backs leave in the result array, at (n, j). -/
theorem result_eq (n : Fin 50000) (j : Fin 128) :
    (dat2 (F := Ideal) (V5 m) c).arrAt 5 cfg2.N (ix2 n j)
      = Cert.NormSpec.outWith (Cert.NormSpec.varK (sOf m c)) (sOf m c)
          (fun j => m ((c : Thread nD τ).loc main_arg6) (ix1 j)) (fun j => m ((c : Thread nD τ).loc main_arg7) (ix1 j)) n j := by
  rw [final2 (V5 m) c, Gnorm_apply]
  rw [show V5 m c main_v34_0 = sArr (V3 m) c from (h2_keep (W4 m c)).trans (W4_s m c),
    show V5 m c main_v46 (ix2 (0 : Fin 1) j) = _ from h2_mean (W4 m c) j,
    show V5 m c main_v47 (ix2 (0 : Fin 1) j) = _ from h2_invstd (W4 m c) j,
    show V5 m c main_v48 (ix2 (0 : Fin 1) j) = _ from h2_gamma (W4 m c) j,
    show V5 m c main_v49 (ix2 (0 : Fin 1) j) = _ from h2_beta (W4 m c) j,
    sArr_eq m c n j, W4_sum m c j, W4_sumsq m c j,
    W4_keep m c main_arg6 (by decide) (by decide) (by decide) (by decide),
    W4_keep m c main_arg7 (by decide) (by decide) (by decide) (by decide)]
  rfl

end Cert.KernelIdeal.Val

end
-- ==== Proof.FiniteInputs.lean ====
/-
  What the precondition says, read back. The printed predicate is the conjunction, over the six float arguments, of
  `all (|x| < +∞)`. Over the extended reals `|x| = max x (−x)` is below `+∞` exactly when `x` is neither infinity, that
  is, when `x` is (the coercion of) a real number. So from the predicate holding we read off: every entry of the
  feature array and of the three weight matrices is a real number. (The two vectors are covered too; nothing below
  needs them.)
-/
import proofs.«136928_j37177236914931_1_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

instance : Subsingleton S_.Idx := ⟨fun a b => funext fun d => d.elim0⟩

/-- The pattern of `+∞` denotes the top element. -/
theorem ofBits_inf : Ideal.ofBits .f32 0x7F800000#32 = ⊤ := by
  simp [Ideal.ofBits, Ideal.ieee]

/-- An extended real whose absolute value is below `+∞` is a real number. -/
theorem real_of_abs_lt (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  have hlt : max x (-x) < ⊤ := by
    have h' : BitVec.ofBool (decide (max x (-x) < Ideal.ofBits .f32 0x7F800000#32)) = 1#1 := h
    rw [ofBits_inf] at h'
    by_contra hn
    rw [decide_eq_false hn] at h'
    exact absurd h' (by decide)
  induction x using EReal.rec with
  | bot => simp at hlt
  | coe r => exact ⟨r, rfl⟩
  | top => simp at hlt

variable [Facts]

/-- One conjunct of the predicate, read back: an array all of whose entries pass the test holds real numbers. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu ValueIdx.ix0 = 1#1) (i : s.Idx) : ∃ r : ℝ, x i = (r : EReal) :=
  real_of_abs_lt (x i) (Host.reduce_andi_all _ _ hr hu _ h i)

/-- The precondition gives: the feature array and the three weight matrices hold real numbers. -/
theorem reals_of_pre (x0 : FVec Ideal S50000x128 .f32) (x1 x2 : IVec S2x1600000 32) (x3 x4 x5 : FVec Ideal S128x128 .f32)
    (x6 x7 : FVec Ideal S128 .f32) (h : fn (F := Ideal) x0 x1 x2 x3 x4 x5 x6 x7 = fun _ => 1#1) :
    (∀ i, ∃ r : ℝ, x0 i = (r : EReal)) ∧ (∀ i, ∃ r : ℝ, x3 i = (r : EReal)) ∧ (∀ i, ∃ r : ℝ, x4 i = (r : EReal))
      ∧ (∀ i, ∃ r : ℝ, x5 i = (r : EReal)) := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, h17⟩ := IntOp.andi_eq_one.1 h2
  obtain ⟨h4, h12⟩ := IntOp.andi_eq_one.1 h3
  obtain ⟨h5, h7⟩ := IntOp.andi_eq_one.1 h4
  exact ⟨all_real x0 _ _ _ h5, all_real x3 _ _ _ h7, all_real x4 _ _ _ h12, all_real x5 _ _ _ h17⟩

end Cert.FiniteInputs

end
-- ==== Proof.lean ====
/-
  The five claims.

  Frames. The word-level kernel and its idealization are the same text read at two number systems; one proof, written
  once for any number system, runs @main as six segments — host operations, the fused linear layer over ten blocks of
  rows, host operations (column slices, two row gathers and two scatter-adds), the summing region with its two row
  accumulators carried across the ten blocks, host operations (means, variances, reciprocal square roots), the
  normalising region — and shows that no segment writes an argument array. The reference is a straight line of host
  operations; its run is read back operation by operation.

  Nothing to preserve: the idealization rewrote no operation.

  Values. At the exact values the kernel's result at (n, j) is the normalised output of the summed array `s` with the
  variance taken as "mean of squares less squared mean", the reference's the same with the variance as "mean of squared
  deviations", and `s` is one and the same array on both sides (gathering rows commutes with the linear layer). Under
  the precondition every entry of `s` is a real number — a finite sum of products of real numbers — and on real columns
  the two variances agree, so the results agree entry by entry.
-/
import proofs.«136928_j37177236914931_1_alg».proof.Defs
import proofs.«136928_j37177236914931_1_alg».proof.Proof.Gen.Kernel
import proofs.«136928_j37177236914931_1_alg».proof.Proof.Gen.KernelIdeal
import proofs.«136928_j37177236914931_1_alg».proof.Proof.Gen.ReferenceIdeal
import proofs.«136928_j37177236914931_1_alg».proof.Proof.Gen.ReferenceIdeal.Run
import proofs.«136928_j37177236914931_1_alg».proof.Proof.Gen.ReferenceIdeal.Read
import proofs.«136928_j37177236914931_1_alg».proof.Proof.Gen.Pre_finite_inputs
import proofs.«136928_j37177236914931_1_alg».proof.Proof.Kernel.Run
import proofs.«136928_j37177236914931_1_alg».proof.Proof.KernelIdeal.Run
import proofs.«136928_j37177236914931_1_alg».proof.Proof.KFinal
import proofs.«136928_j37177236914931_1_alg».proof.Proof.RefValue
import proofs.«136928_j37177236914931_1_alg».proof.Proof.FiniteInputs
import proofs.«136928_j37177236914931_1_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and leaves its arguments as launched. -/
theorem frame_kernel : Cert.frame_Kernel := fun m ρ _ => Cert.Kernel.Frm.frame m ρ

/-- So does its idealization. -/
theorem frame_kernelIdeal : Cert.frame_KernelIdeal := fun m ρ _ => Cert.KernelIdeal.Frm.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end, with equal results entry by entry. -/
theorem algebraic : Cert.algebraic_KernelIdeal_ReferenceIdeal := by
  intro m ρ m' ρ' hpre hagree
  refine ⟨fun c => (Cert.KernelIdeal.Frm.dat2 (F := Ideal) (Cert.KernelIdeal.Frm.V5 m) c).arrAt 5 Cert.KernelIdeal.cfg2.N,
    Cert.KernelIdeal.Frm.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  obtain ⟨r0, r3, r4, r5⟩ := Cert.FiniteInputs.reals_of_pre _ _ _ _ _ _ _ _ (hpre c)
  rw [Cert.ReferenceIdeal.Read.val_main_v61_eq, e0, e1, e2, e3, e4, e5, e6, e7]
  refine funext fun i => ?_
  obtain ⟨n, j, rfl⟩ : ∃ (n : Fin 50000) (j : Fin 128), i = ix2 n j := ⟨i 0, i 1, eq_ix2 i⟩
  refine (Cert.ReferenceIdeal.RefValue.ref_out _ _ _ _ _ _ _ _ n j).trans ?_
  refine Eq.trans ?_ (Cert.KernelIdeal.Val.result_eq m c n j).symm
  exact (Cert.NormSpec.outWith_varK _ _ _
    (fun n j => Cert.ReferenceIdeal.RefValue.s_real _ _ _ _ _ _ r0 r3 r4 r5 n j) n j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
